-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_balance_norm" .f32 0x3FB504F3#32 ((16777216 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩
abbrev S1024x1024 : Shape := ⟨2, ![1024, 1024]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  reducesTo_S_S_d : S_.ReducesTo [] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v12 : IVec S_ 1) (main_v15 : IVec S1024x1024 1) (main_c_5 : IVec S_ 1) : IVec S_ 1 :=
  let main_v16 : IVec S_ 1 := (fun x v => Host.reduce IntOp.andi x v reducesTo_S1024x1024_S_d0_1 h_S_) main_v15 main_c_5
  let main_v17 : IVec S_ 1 := andi main_v12 main_v16
  let main_v18 : FVec F S1024x1024 .f32 := Host.absf main_arg4
  let main_cst_6 : FVec F S_ .f32 := constant S_ .f32 0x7F800000#32
  let main_v19 : FVec F S1024x1024 .f32 := broadcastInDim S1024x1024 ![] bcast_S_S1024x1024 main_cst_6
  let main_v20 : IVec S1024x1024 1 := cmpf .olt main_v18 main_v19
  let main_c_7 : IVec S_ 1 := constantI S_ 1 1#1
  let main_v21 : IVec S_ 1 := (fun x v => Host.reduce IntOp.andi x v reducesTo_S1024x1024_S_d0_1 h_S_) main_v20 main_c_7
  let main_v22 : IVec S_ 1 := andi main_v17 main_v21
  let main_v23 : FVec F S1024x1024 .f32 := Host.absf main_arg5
  let main_cst_8 : FVec F S_ .f32 := constant S_ .f32 0x7F800000#32
  let main_v24 : FVec F S1024x1024 .f32 := broadcastInDim S1024x1024 ![] bcast_S_S1024x1024 main_cst_8
  let main_v25 : IVec S1024x1024 1 := cmpf .olt main_v23 main_v24
  let main_c_9 : IVec S_ 1 := constantI S_ 1 1#1
  let main_v26 : IVec S_ 1 := (fun x v => Host.reduce IntOp.andi x v reducesTo_S1024x1024_S_d0_1 h_S_) main_v25 main_c_9
  let main_v27 : IVec S_ 1 := andi main_v22 main_v26
  main_v27

def fn {F : FTy → Type} [FloatOps F] (main_arg0 : FVec F S4x4096x1024 .f32) (main_arg1 : FVec F S_ .f32) (main_arg2 : FVec F S1024x1024 .f32) (main_arg3 : FVec F S1024x1024 .f32) (main_arg4 : FVec F S1024x1024 .f32) (main_arg5 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v7 main_v11
  let main_v13 : FVec F S1024x1024 .f32 := Host.absf main_arg3
  let main_cst_4 : FVec F S_ .f32 := constant S_ .f32 0x7F800000#32
  let main_v14 : FVec F S1024x1024 .f32 := broadcastInDim S1024x1024 ![] bcast_S_S1024x1024 main_cst_4
  let main_v15 : IVec S1024x1024 1 := cmpf .olt main_v13 main_v14
  let main_c_5 : IVec S_ 1 := constantI S_ 1 1#1
  fn_part1 (F := F) main_arg4 main_arg5 main_v12 main_v15 main_c_5
-- ==== Kernel.lean ====
abbrev S4x4096x1024 : Shape := ⟨3, ![4, 4096, 1024]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S16384x1024 : Shape := ⟨2, ![16384, 1024]⟩
abbrev S512x1024 : Shape := ⟨2, ![512, 1024]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S64x64 : Shape := ⟨2, ![64, 64]⟩
abbrev S64 : Shape := ⟨1, ![64]⟩
abbrev S64x1 : Shape := ⟨2, ![64, 1]⟩

abbrev nBuf : Space → Nat
  | .hbm => 85
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S_, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1, .f32⟩
  | .hbm, ⟨28, _⟩ => ⟨S_, .f32⟩
  | .hbm, ⟨29, _⟩ => ⟨S1024x1, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S1024x1, .f32⟩
  | .hbm, ⟨45, _⟩ => ⟨S_, .f32⟩
  | .hbm, ⟨46, _⟩ => ⟨S1024x1, .f32⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1024x1, .f32⟩
  | .hbm, ⟨62, _⟩ => ⟨S_, .f32⟩
  | .hbm, ⟨63, _⟩ => ⟨S1024x1, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S1024x1024, .bf16⟩
  | .hbm, ⟨75, _⟩ => ⟨S1024x1024, .bf16⟩
  | .hbm, ⟨76, _⟩ => ⟨S1024x1024, .bf16⟩
  | .hbm, ⟨77, _⟩ => ⟨S1024x1024, .bf16⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .bf16⟩
  | .hbm, ⟨82, _⟩ => ⟨S16384x1024, .bf16⟩
  | .hbm, ⟨83, _⟩ => ⟨S16384x1024, .f32⟩
  | .hbm, ⟨84, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57_0 : Ref sig .tc := ⟨.hbm, 79, rfl⟩
abbrev main_v57_1 : Ref sig .tc := ⟨.hbm, 80, rfl⟩
abbrev main_v57_2 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bitsLt_bf16_f32 : FTy.bits .bf16 < FTy.bits .f32
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4096x128_o0_0_S4096x64 : S4096x128.Slices ![0, 0] S4096x64
  reduces_S4096x64_S4096 : S4096x64.Reduces [1] S4096
  shapeCasts_S4096_S4096x1 : S4096.ShapeCasts S4096x1
  broadcasts_S4096x1_S4096x64 : S4096x1.Broadcasts S4096x64
  reduces_S64x64_S64 : S64x64.Reduces [1] S64
  shapeCasts_S64_S64x1 : S64.ShapeCasts S64x1
  broadcasts_S64x1_S64x64 : S64x1.Broadcasts S64x64
  inb_S4096x128_S4096x64_0_0 : ∀ a, (![0, 0] : Fin 2 → Nat) a + S4096x64.size a ≤ S4096x128.size a
  h_S4096x64 : 0 < S4096x64.numel
  packedbf16_S4096x128_S4096x64_0_0 : (Rect.unit (s := S4096x128) ![0, 0] S4096x64.size inb_S4096x128_S4096x64_0_0).PackedRows (EltTy.packing .bf16)
  slices_S4096x128_o0_64_S4096x64 : S4096x128.Slices ![0, 64] S4096x64
  inb_S4096x128_S4096x64_0_64 : ∀ a, (![0, 64] : Fin 2 → Nat) a + S4096x64.size a ≤ S4096x128.size a
  packedbf16_S4096x128_S4096x64_0_64 : (Rect.unit (s := S4096x128) ![0, 64] S4096x64.size inb_S4096x128_S4096x64_0_64).PackedRows (EltTy.packing .bf16)
  shapeCasts_S16384x1024_S4x4096x1024 : S16384x1024.ShapeCasts S4x4096x1024
  dot_S512x1024_S1024x1024_S512x1024_1_1_0_0_n_n_wf : DotDims.WF S512x1024 S1024x1024 S512x1024 [1] [1] [0] [0] [] []
  dot_S4096x64_S4096x64_S64x64_0_0_1_1_n_n_wf : DotDims.WF S4096x64 S4096x64 S64x64 [0] [0] [1] [1] [] []
  dot_S4096x64_S64x64_S4096x64_1_1_0_0_n_n_wf : DotDims.WF S4096x64 S64x64 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x1024.size a
  hwx1_0 : ∀ i : grid1.Coords, EltTy.bits .f32 = 32 ∨ (Rect.block (s := S16384x1024) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x1024.size a
  hwx1_1 : ∀ i : grid1.Coords, EltTy.bits .f32 = 32 ∨ (Rect.block (s := S16384x1024) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S16384x1024.size a
  hwx1_2 : ∀ i : grid1.Coords, EltTy.bits .bf16 = 32 ∨ (Rect.block (s := S16384x1024) S4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S16384x1024.size a
  hwx1_3 : ∀ i : grid1.Coords, EltTy.bits .bf16 = 32 ∨ (Rect.block (s := S16384x1024) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .bf16 = 32 ∨ (Rect.block (s := S16384x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S16384x1024.size a
  hwx2_2 : ∀ i : grid2.Coords, EltTy.bits .f32 = 32 ∨ (Rect.block (s := S16384x1024) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .f32 = 32 ∨ (Rect.block (s := S16384x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf

abbrev win0_0 : Pipeline.Window sig grid0 :=
  Pipeline.Window.ofSpec (Memref.whole main_v56) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v57_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v57_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v57_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57_1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57_2) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S4x4096x16x64 : Shape := ⟨4, ![4, 4096, 16, 64]⟩
abbrev S4x16x4096x64 : Shape := ⟨4, ![4, 16, 4096, 64]⟩
abbrev S4x16x4096 : Shape := ⟨3, ![4, 16, 4096]⟩
abbrev S4x16x4096x1 : Shape := ⟨4, ![4, 16, 4096, 1]⟩
abbrev S4x16x64x64 : Shape := ⟨4, ![4, 16, 64, 64]⟩
abbrev S4x16x64 : Shape := ⟨3, ![4, 16, 64]⟩
abbrev S4x16x64x1 : Shape := ⟨4, ![4, 16, 64, 1]⟩

abbrev nBuf : Space → Nat
  | .hbm => 141
  | .vmem => 0
  | .smem => 0
  | _ => 0

abbrev hbmTy0_0 (i : Nat) : BufTy := match i % 128 with
  | 0 => ⟨S4x4096x1024, .f32⟩
  | 1 => ⟨S_, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S_, .f32⟩
  | 15 => ⟨S1024x1, .f32⟩
  | 16 => ⟨S1024x1, .f32⟩
  | 17 => ⟨S1024x1024, .f32⟩
  | 18 => ⟨S1024x1024, .f32⟩
  | 19 => ⟨S_, .f32⟩
  | 20 => ⟨S_, .f32⟩
  | 21 => ⟨S1024x1024, .f32⟩
  | 22 => ⟨S1024x1024, .f32⟩
  | 23 => ⟨S4x4096x1024, .f32⟩
  | 24 => ⟨S4x4096x16x64, .f32⟩
  | 25 => ⟨S4x16x4096x64, .f32⟩
  | 26 => ⟨S1024x1024, .f32⟩
  | 27 => ⟨S_, .f32⟩
  | 28 => ⟨S1024, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S_, .f32⟩
  | 35 => ⟨S1024x1, .f32⟩
  | 36 => ⟨S1024x1, .f32⟩
  | 37 => ⟨S1024x1024, .f32⟩
  | 38 => ⟨S1024x1024, .f32⟩
  | 39 => ⟨S_, .f32⟩
  | 40 => ⟨S_, .f32⟩
  | 41 => ⟨S1024x1024, .f32⟩
  | 42 => ⟨S1024x1024, .f32⟩
  | 43 => ⟨S4x4096x1024, .f32⟩
  | 44 => ⟨S4x4096x16x64, .f32⟩
  | 45 => ⟨S4x16x4096x64, .f32⟩
  | 46 => ⟨S1024x1024, .f32⟩
  | 47 => ⟨S_, .f32⟩
  | 48 => ⟨S1024, .f32⟩
  | 49 => ⟨S1024x1, .f32⟩
  | 50 => ⟨S1024x1, .f32⟩
  | 51 => ⟨S_, .f32⟩
  | 52 => ⟨S1024x1, .f32⟩
  | 53 => ⟨S1024x1, .f32⟩
  | 54 => ⟨S_, .f32⟩
  | 55 => ⟨S1024x1, .f32⟩
  | 56 => ⟨S1024x1, .f32⟩
  | 57 => ⟨S1024x1024, .f32⟩
  | 58 => ⟨S1024x1024, .f32⟩
  | 59 => ⟨S_, .f32⟩
  | 60 => ⟨S_, .f32⟩
  | 61 => ⟨S1024x1024, .f32⟩
  | 62 => ⟨S1024x1024, .f32⟩
  | 63 => ⟨S4x4096x1024, .f32⟩
  | 64 => ⟨S4x4096x16x64, .f32⟩
  | 65 => ⟨S4x16x4096x64, .f32⟩
  | 66 => ⟨S4x16x4096x64, .f32⟩
  | 67 => ⟨S_, .f32⟩
  | 68 => ⟨S4x16x4096, .f32⟩
  | 69 => ⟨S4x16x4096x1, .f32⟩
  | 70 => ⟨S4x16x4096x1, .f32⟩
  | 71 => ⟨S_, .f32⟩
  | 72 => ⟨S4x16x4096x1, .f32⟩
  | 73 => ⟨S4x16x4096x1, .f32⟩
  | 74 => ⟨S_, .f32⟩
  | 75 => ⟨S4x16x4096x1, .f32⟩
  | 76 => ⟨S4x16x4096x1, .f32⟩
  | 77 => ⟨S4x16x4096x64, .f32⟩
  | 78 => ⟨S4x16x4096x64, .f32⟩
  | 79 => ⟨S4x16x4096x64, .f32⟩
  | 80 => ⟨S_, .f32⟩
  | 81 => ⟨S4x16x4096, .f32⟩
  | 82 => ⟨S4x16x4096x1, .f32⟩
  | 83 => ⟨S4x16x4096x1, .f32⟩
  | 84 => ⟨S_, .f32⟩
  | 85 => ⟨S4x16x4096x1, .f32⟩
  | 86 => ⟨S4x16x4096x1, .f32⟩
  | 87 => ⟨S_, .f32⟩
  | 88 => ⟨S4x16x4096x1, .f32⟩
  | 89 => ⟨S4x16x4096x1, .f32⟩
  | 90 => ⟨S4x16x4096x64, .f32⟩
  | 91 => ⟨S4x16x4096x64, .f32⟩
  | 92 => ⟨S_, .f32⟩
  | 93 => ⟨S4x16x4096x64, .f32⟩
  | 94 => ⟨S4x16x4096x64, .f32⟩
  | 95 => ⟨S4x16x64x64, .f32⟩
  | 96 => ⟨S_, .f32⟩
  | 97 => ⟨S4x16x64, .f32⟩
  | 98 => ⟨S_, .f32⟩
  | 99 => ⟨S4x16x64, .f32⟩
  | 100 => ⟨S4x16x64, .f32⟩
  | 101 => ⟨S4x16x64x1, .f32⟩
  | 102 => ⟨S4x16x64x64, .f32⟩
  | 103 => ⟨S4x16x64x64, .f32⟩
  | 104 => ⟨S4x16x64x64, .f32⟩
  | 105 => ⟨S_, .f32⟩
  | 106 => ⟨S4x16x64, .f32⟩
  | 107 => ⟨S4x16x64x1, .f32⟩
  | 108 => ⟨S4x16x64x64, .f32⟩
  | 109 => ⟨S4x16x64x64, .f32⟩
  | 110 => ⟨S4x16x4096x64, .f32⟩
  | 111 => ⟨S4x4096x16x64, .f32⟩
  | 112 => ⟨S4x4096x1024, .f32⟩
  | 113 => ⟨S1024x1024, .f32⟩
  | 114 => ⟨S_, .f32⟩
  | 115 => ⟨S1024, .f32⟩
  | 116 => ⟨S1024x1, .f32⟩
  | 117 => ⟨S1024x1, .f32⟩
  | 118 => ⟨S_, .f32⟩
  | 119 => ⟨S1024x1, .f32⟩
  | 120 => ⟨S1024x1, .f32⟩
  | 121 => ⟨S_, .f32⟩
  | 122 => ⟨S1024x1, .f32⟩
  | 123 => ⟨S1024x1, .f32⟩
  | 124 => ⟨S1024x1024, .f32⟩
  | 125 => ⟨S1024x1024, .f32⟩
  | 126 => ⟨S_, .f32⟩
  | 127 => ⟨S_, .f32⟩
  | _ => ⟨S4x4096x1024, .f32⟩

abbrev hbmTy0_1 (i : Nat) : BufTy := match i % 128 with
  | 0 => ⟨S1024x1024, .f32⟩
  | 1 => ⟨S1024x1024, .f32⟩
  | 2 => ⟨S4x4096x1024, .f32⟩
  | 3 => ⟨S_, .f32⟩
  | 4 => ⟨S4x4096x1024, .f32⟩
  | 5 => ⟨S4x4096x1024, .f32⟩
  | 6 => ⟨S_, .f32⟩
  | 7 => ⟨S4x4096x1024, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_18 : Ref sig .tc := ⟨.hbm, 96, rfl⟩
abbrev main_v71 : Ref sig .tc := ⟨.hbm, 97, rfl⟩
abbrev main_cst_19 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_20 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_21 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_22 : Ref sig .tc := ⟨.hbm, 118, rfl⟩
abbrev main_v89 : Ref sig .tc := ⟨.hbm, 119, rfl⟩
abbrev main_v90 : Ref sig .tc := ⟨.hbm, 120, rfl⟩
abbrev main_cst_23 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_24 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_25 : Ref sig .tc := ⟨.hbm, 131, rfl⟩
abbrev main_v99 : Ref sig .tc := ⟨.hbm, 132, rfl⟩
abbrev main_v100 : Ref sig .tc := ⟨.hbm, 133, rfl⟩
abbrev main_cst_26 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_27 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  reducesTo_S4x16x4096x64_S4x16x4096_d3 : S4x16x4096x64.ReducesTo [3] S4x16x4096
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  bcast_S_S4x16x4096x64 : S_.BroadcastsInDim S4x16x4096x64 (![] : Fin 0 → Fin S4x16x4096x64.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  bcast_S_S4x4096x1024 : S_.BroadcastsInDim S4x4096x1024 (![] : Fin 0 → Fin S4x4096x1024.rank)
  dot_S4x4096x1024_S1024x1024_S4x4096x1024_2_1_01_0_n_n_wf : DotDims.WF S4x4096x1024 S1024x1024 S4x4096x1024 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_3_2_2_01_01_wf : DotDims.WF S4x16x4096x64 S4x16x64x64 S4x16x4096x64 [3] [3] [2] [2] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_3_2_2_01_01 : DotDims S4x16x4096x64 S4x16x64x64 S4x16x4096x64 where
  lhsContracting := [3]
  rhsContracting := [3]
  lhsNonContracting := [2]
  rhsNonContracting := [2]
  lhsBatch := [0, 1]
  rhsBatch := [0, 1]
  wf := dot_S4x16x4096x64_S4x16x64x64_S4x16x4096x64_3_3_2_2_01_01_wf

class Facts : Prop extends Facts₀ where

variable [Facts]
-- ==== Proof.Claims.lean ====
/-
  The four conjuncts of the claim that say nothing about the result's value.

  * each of the three programs runs to the end, nothing faulting, and leaves its six argument arrays as it found them;
  * the idealized kernel differs from the kernel in one constant: the factor the blend is multiplied by, printed as the
    word 0x3FB504F3, is read at the ideal values as the rational 16777216 / 11863283 — the reciprocal of the rational
    that the word the reference divides by, 0x3F3504F3, denotes.
-/
import proofs.«146488_j26654567039403_2_alg».proof.Defs
import proofs.«146488_j26654567039403_2_alg».proof.Proof.Gen.Kernel
import proofs.«146488_j26654567039403_2_alg».proof.Proof.Gen.Kernel.Frame
import proofs.«146488_j26654567039403_2_alg».proof.Proof.Gen.KernelIdeal
import proofs.«146488_j26654567039403_2_alg».proof.Proof.Gen.KernelIdeal.Frame
import proofs.«146488_j26654567039403_2_alg».proof.Proof.Gen.ReferenceIdeal
import proofs.«146488_j26654567039403_2_alg».proof.Proof.Gen.ReferenceIdeal.Run
import proofs.«146488_j26654567039403_2_alg».proof.Proof.Gen.Pre_finite_inputs

noncomputable section

open Idealize.ShloMosaic Idealize.ShloMosaic.TcCoe Idealize.SL.Sem

namespace Cert.Proof.Conjuncts

/-- The kernel, on words, runs and leaves its arguments unchanged. -/
theorem frame_kernel : Cert.frame_Kernel := fun m ρ _ => Cert.Kernel.Gen.frame m ρ

/-- The kernel at the ideal values runs and leaves its arguments unchanged. -/
theorem frame_kernelIdeal : Cert.frame_KernelIdeal := fun m ρ _ => Cert.KernelIdeal.Gen.frame m ρ

/-- The reference at the ideal values runs and leaves its arguments unchanged: its run, with what it says of the
    result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one constant the idealized kernel names: the blend's factor, the word 0x3FB504F3, is the rational
    16777216 / 11863283 at the ideal values, as the certificate's table gives it. -/
theorem preserves : Cert.preserves_Kernel_KernelIdeal :=
  IdealRules.named_const.statement Cert.KernelIdeal.κ "inv_balance_norm" .f32 0x3FB504F3#32 ((16777216 / 11863283 : ℝ) : EReal) rfl

end Cert.Proof.Conjuncts

end
-- ==== Proof.BlockProduct.lean ====
/-
  A block of 512 token rows against all 1024 rows of a weight matrix: the matrix unit's product, contracting the
  second axis of both operands into a zero accumulator, read at an entry. Entry `(p, o)` is the sum over the 1024
  columns `k` of the left operand's `(p, k)` times the right operand's `(o, k)` — rows against rows.
-/
import proofs.«146488_j26654567039403_2_alg».proof.Proof.Gen.KernelIdeal
import Idealize.ShloMosaic.Lib.ValueIdx
import Idealize.ShloMosaic.PureOps.Ideal.Laws

noncomputable section

open scoped BigOperators

namespace Cert.KernelIdeal.Bridge

open Cert.KernelIdeal Idealize.ShloMosaic Idealize.ShloMosaic.ValueIdx

/-- The left operand's row coordinate is the entry's row. -/
theorem projT_lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl

/-- The right operand's row coordinate is the entry's column. -/
theorem projT_rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- Rows against rows: entry `(p, o)` of the product is `∑ k, l (p, k) * r (o, k)`. -/
theorem projT_apply {φ₁ φ₂ : FTy} (l : FVec Ideal S512x1024 φ₁) (r : FVec Ideal S1024x1024 φ₂) (p : Fin 512) (o : Fin 1024) :
    matmul dot_S512x1024_S1024x1024_S512x1024_1_1_0_0_n_n none l r (constant S512x1024 .f32 0x00000000#32) (ix2 p o)
      = ∑ k : Fin 1024, l (ix2 p k) * r (ix2 o k) := by
  refine (Ideal.matmul_constant_zero_apply dot_S512x1024_S1024x1024_S512x1024_1_1_0_0_n_n none l r (ix2 p o)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p o) ((contrEquiv1 dot_S512x1024_S1024x1024_S512x1024_1_1_0_0_n_n 1024 rfl rfl).symm k) = ix2 p k := funext fun a => Fin.ext (by
    match a with
    | ⟨0, _⟩ => exact projT_lhs0 _ _
    | ⟨1, _⟩ => exact (dot_S512x1024_S1024x1024_S512x1024_1_1_0_0_n_n.lhsIdx_val_of_single rfl _ _).trans hk)
  have er : dot_S512x1024_S1024x1024_S512x1024_1_1_0_0_n_n.rhsIdx (ix2 p o) ((contrEquiv1 dot_S512x1024_S1024x1024_S512x1024_1_1_0_0_n_n 1024 rfl rfl).symm k) = ix2 o k := funext fun a => Fin.ext (by
    match a with
    | ⟨0, _⟩ => exact projT_rhs0 _ _
    | ⟨1, _⟩ => exact (dot_S512x1024_S1024x1024_S512x1024_1_1_0_0_n_n.rhsIdx_val_of_single rfl _ _).trans hk)
  rw [el, er]

end Cert.KernelIdeal.Bridge

end
-- ==== Proof.Region0.lean ====
/-
  The first call: the tokens' three projections. The call walks the 16384 token rows in 32 blocks of 512; at every
  block it multiplies the block against all 1024 rows of a weight matrix, three times. So each of its three result
  arrays is, entry by entry, a token row against a weight row — whatever the block the row sits in.
-/
import proofs.«146488_j26654567039403_2_alg».proof.Proof.Gen.KernelIdeal.Frame
import proofs.«146488_j26654567039403_2_alg».proof.Proof.BlockProduct
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The offsets `(0, 0)` of a rectangle that starts at the buffer's corner. -/
theorem corner : (![0, 0] : Fin 2 → Nat) = fun _ => 0 := funext fun a => by fin_cases a <;> rfl

/-- Every token row against every weight row: entry `(r, o)` is `∑ k, X (r, k) * W (o, k)`. -/
def proj (X : S16384x1024.Idx → EReal) (W : S1024x1024.Idx → EReal) : S16384x1024.Idx → EReal :=
  fun i => ∑ k : Fin 1024, X (ix2 (i 0) k) * W (ix2 (i 1) k)

/-- The narrowing of a block to the matrix unit's input format changes no value. -/
theorem narrowed_apply (x0 : Vec Ideal S512x1024 .f32) (y : S512x1024.Idx) : k0_pay1 x0 y = x0 y := by
  unfold k0_pay1
  rw [shapeCast_self]
  rfl

/-- The first product's block, at an entry: the block's row against the weight's row. -/
theorem pay2_apply (x0 : Vec Ideal S512x1024 .f32) (x1 : Vec Ideal S1024x1024 .bf16) (y : S512x1024.Idx) :
    k0_pay2 x0 x1 y = ∑ k : Fin 1024, x0 (ix2 (y 0) k) * x1 (ix2 (y 1) k) := by
  obtain ⟨p, o, rfl⟩ : ∃ (p : Fin 512) (o : Fin 1024), y = ix2 p o := ⟨y 0, y 1, eq_ix2 y⟩
  unfold k0_pay2
  refine (projT_apply _ _ p o).trans ?_
  refine Finset.sum_congr rfl fun k _ => ?_
  rw [narrowed_apply, shapeCast_self]

/-- The second product's block, at an entry. -/
theorem pay3_apply (x0 : Vec Ideal S512x1024 .f32) (x1 : Vec Ideal S1024x1024 .bf16) (y : S512x1024.Idx) :
    k0_pay3 x0 x1 y = ∑ k : Fin 1024, x0 (ix2 (y 0) k) * x1 (ix2 (y 1) k) := by
  obtain ⟨p, o, rfl⟩ : ∃ (p : Fin 512) (o : Fin 1024), y = ix2 p o := ⟨y 0, y 1, eq_ix2 y⟩
  unfold k0_pay3
  refine (projT_apply _ _ p o).trans ?_
  refine Finset.sum_congr rfl fun k _ => ?_
  rw [narrowed_apply, shapeCast_self]

/-- The third product's block, at an entry (its narrowing on the way out changes no value). -/
theorem pay4_apply (x0 : Vec Ideal S512x1024 .f32) (x1 : Vec Ideal S1024x1024 .bf16) (y : S512x1024.Idx) :
    k0_pay4 x0 x1 y = ∑ k : Fin 1024, x0 (ix2 (y 0) k) * x1 (ix2 (y 1) k) := by
  obtain ⟨p, o, rfl⟩ : ∃ (p : Fin 512) (o : Fin 1024), y = ix2 p o := ⟨y 0, y 1, eq_ix2 y⟩
  unfold k0_pay4
  show matmul dot_S512x1024_S1024x1024_S512x1024_1_1_0_0_n_n none (k0_pay1 x0) (shapeCast S1024x1024 x1 shapeCasts_S1024x1024_S1024x1024) (constant S512x1024 .f32 0x00000000#32) (ix2 p o) = _
  refine (projT_apply _ _ p o).trans ?_
  refine Finset.sum_congr rfl fun k _ => ?_
  rw [narrowed_apply, shapeCast_self]

/-! ## From blocks to arrays -/

/-- The printed index maps, decided over the 32 points: the token window and the three result windows sit at block
    row `t`; each weight window is the whole matrix at every point. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-- What point `t` writes back to the first result is block `t` of the tokens' projection against that weight matrix. -/
theorem flushed0_4_eq (c : Dev nD) (t : Fin cfg0.N) :
    (dat0 V c).flushed 4 t = ((cfg0.win 4).blk t).view.read (Elt Ideal) (proj (V c main_v56) (V c main_v52)) := by
  show (cfg0.win 4).cut (grid0.coords t) ((dat0 V c).after 4 t) = _
  rw [after0_4]
  unfold out0_4
  rw [View.canon_unit_zero corner]
  simp only [View.ld_unit_zero (S := S512x1024) corner, View.ld_unit_zero (S := S1024x1024) corner]
  obtain ⟨a00, a01, a10, a11, a20, a21, a30, a31, a40, a41, a50, a51, a60, a61⟩ := where0 t
  funext j
  refine (pay2_apply _ _ _).trans ?_
  show ∑ k : Fin 1024, @HMul.hMul EReal EReal EReal _ (V c main_v56 (((cfg0.win 0).blk t).view.emb (ix2 (j 0) k))) (V c main_v52 (((cfg0.win 1).blk t).view.emb (ix2 (j 1) k)))
      = ∑ k : Fin 1024, @HMul.hMul EReal EReal EReal _ (V c main_v56 (ix2 ((((cfg0.win 4).blk t).view.emb j) 0) k)) (V c main_v52 (ix2 ((((cfg0.win 4).blk t).view.emb j) 1) k))
  refine Finset.sum_congr rfl fun k _ => ?_
  have h0 : ((cfg0.win 0).blk t).view.emb (ix2 (j 0) k) = ix2 ((((cfg0.win 4).blk t).view.emb j) 0) k := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * k.val = k.val; omega
  have h1 : ((cfg0.win 1).blk t).view.emb (ix2 (j 1) k) = ix2 ((((cfg0.win 4).blk t).view.emb j) 1) k := by
    funext a; apply Fin.ext
    match a with
    | ⟨0, _⟩ => show win0_1.index t (0 : Fin 2) * 1024 + 1 * (j 1).val = win0_4.index t (1 : Fin 2) * 1024 + 1 * (j 1).val; omega
    | ⟨1, _⟩ => show win0_1.index t (1 : Fin 2) * 1024 + 1 * k.val = k.val; omega
  exact congrArg₂ (@HMul.hMul EReal EReal EReal _) (congrArg (V c main_v56) h0) (congrArg (V c main_v52) h1)

/-- An entry is in point `t`'s block of the first result iff each coordinate is in the block's range on its axis. -/
theorem mem_blk0_4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v57_0).slice (win0_4.rect t)).set ↔ _
  rw [View.set_slice_whole, Rect.mem_set_unit]
  exact Iff.rfl

/-- Every entry of the first result is in some point's block: row `r` is in the block of point `r / 512`. -/
theorem covered0_4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨a00, a01, a10, a11, a20, a21, a30, a31, a40, a41, a50, a51, a60, a61⟩ := where0 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the call, the first result holds the tokens' projection against that weight matrix. -/
theorem final0_4 (c : Dev nD) : (dat0 V c).arrAt 4 cfg0.N = proj (V c main_v56) (V c main_v52) :=
  (dat0 V c).arrAt_eq_of_cover 4 _ (fun t _ => flushed0_4_eq V c t) covered0_4

/-- What point `t` writes back to the second result is block `t` of the tokens' projection against that weight matrix. -/
theorem flushed0_5_eq (c : Dev nD) (t : Fin cfg0.N) :
    (dat0 V c).flushed 5 t = ((cfg0.win 5).blk t).view.read (Elt Ideal) (proj (V c main_v56) (V c main_v53)) := by
  show (cfg0.win 5).cut (grid0.coords t) ((dat0 V c).after 5 t) = _
  rw [after0_5]
  unfold out0_5
  rw [View.canon_unit_zero corner]
  simp only [View.ld_unit_zero (S := S512x1024) corner, View.ld_unit_zero (S := S1024x1024) corner]
  obtain ⟨a00, a01, a10, a11, a20, a21, a30, a31, a40, a41, a50, a51, a60, a61⟩ := where0 t
  funext j
  refine (pay3_apply _ _ _).trans ?_
  show ∑ k : Fin 1024, @HMul.hMul EReal EReal EReal _ (V c main_v56 (((cfg0.win 0).blk t).view.emb (ix2 (j 0) k))) (V c main_v53 (((cfg0.win 2).blk t).view.emb (ix2 (j 1) k)))
      = ∑ k : Fin 1024, @HMul.hMul EReal EReal EReal _ (V c main_v56 (ix2 ((((cfg0.win 5).blk t).view.emb j) 0) k)) (V c main_v53 (ix2 ((((cfg0.win 5).blk t).view.emb j) 1) k))
  refine Finset.sum_congr rfl fun k _ => ?_
  have h0 : ((cfg0.win 0).blk t).view.emb (ix2 (j 0) k) = ix2 ((((cfg0.win 5).blk t).view.emb j) 0) k := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * k.val = k.val; omega
  have h1 : ((cfg0.win 2).blk t).view.emb (ix2 (j 1) k) = ix2 ((((cfg0.win 5).blk t).view.emb j) 1) k := by
    funext a; apply Fin.ext
    match a with
    | ⟨0, _⟩ => show win0_2.index t (0 : Fin 2) * 1024 + 1 * (j 1).val = win0_5.index t (1 : Fin 2) * 1024 + 1 * (j 1).val; omega
    | ⟨1, _⟩ => show win0_2.index t (1 : Fin 2) * 1024 + 1 * k.val = k.val; omega
  exact congrArg₂ (@HMul.hMul EReal EReal EReal _) (congrArg (V c main_v56) h0) (congrArg (V c main_v53) h1)

/-- An entry is in point `t`'s block of the second result iff each coordinate is in the block's range on its axis. -/
theorem mem_blk0_5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v57_1).slice (win0_5.rect t)).set ↔ _
  rw [View.set_slice_whole, Rect.mem_set_unit]
  exact Iff.rfl

/-- Every entry of the second result is in some point's block: row `r` is in the block of point `r / 512`. -/
theorem covered0_5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨a00, a01, a10, a11, a20, a21, a30, a31, a40, a41, a50, a51, a60, a61⟩ := where0 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the call, the second result holds the tokens' projection against that weight matrix. -/
theorem final0_5 (c : Dev nD) : (dat0 V c).arrAt 5 cfg0.N = proj (V c main_v56) (V c main_v53) :=
  (dat0 V c).arrAt_eq_of_cover 5 _ (fun t _ => flushed0_5_eq V c t) covered0_5

/-- What point `t` writes back to the third result is block `t` of the tokens' projection against that weight matrix. -/
theorem flushed0_6_eq (c : Dev nD) (t : Fin cfg0.N) :
    (dat0 V c).flushed 6 t = ((cfg0.win 6).blk t).view.read (Elt Ideal) (proj (V c main_v56) (V c main_v54)) := by
  show (cfg0.win 6).cut (grid0.coords t) ((dat0 V c).after 6 t) = _
  rw [after0_6]
  unfold out0_6
  rw [View.canon_unit_zero corner]
  simp only [View.ld_unit_zero (S := S512x1024) corner, View.ld_unit_zero (S := S1024x1024) corner]
  obtain ⟨a00, a01, a10, a11, a20, a21, a30, a31, a40, a41, a50, a51, a60, a61⟩ := where0 t
  funext j
  refine (pay4_apply _ _ _).trans ?_
  show ∑ k : Fin 1024, @HMul.hMul EReal EReal EReal _ (V c main_v56 (((cfg0.win 0).blk t).view.emb (ix2 (j 0) k))) (V c main_v54 (((cfg0.win 3).blk t).view.emb (ix2 (j 1) k)))
      = ∑ k : Fin 1024, @HMul.hMul EReal EReal EReal _ (V c main_v56 (ix2 ((((cfg0.win 6).blk t).view.emb j) 0) k)) (V c main_v54 (ix2 ((((cfg0.win 6).blk t).view.emb j) 1) k))
  refine Finset.sum_congr rfl fun k _ => ?_
  have h0 : ((cfg0.win 0).blk t).view.emb (ix2 (j 0) k) = ix2 ((((cfg0.win 6).blk t).view.emb j) 0) k := by
    funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * k.val = k.val; omega
  have h1 : ((cfg0.win 3).blk t).view.emb (ix2 (j 1) k) = ix2 ((((cfg0.win 6).blk t).view.emb j) 1) k := by
    funext a; apply Fin.ext
    match a with
    | ⟨0, _⟩ => show win0_3.index t (0 : Fin 2) * 1024 + 1 * (j 1).val = win0_6.index t (1 : Fin 2) * 1024 + 1 * (j 1).val; omega
    | ⟨1, _⟩ => show win0_3.index t (1 : Fin 2) * 1024 + 1 * k.val = k.val; omega
  exact congrArg₂ (@HMul.hMul EReal EReal EReal _) (congrArg (V c main_v56) h0) (congrArg (V c main_v54) h1)

/-- An entry is in point `t`'s block of the third result iff each coordinate is in the block's range on its axis. -/
theorem mem_blk0_6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v57_2).slice (win0_6.rect t)).set ↔ _
  rw [View.set_slice_whole, Rect.mem_set_unit]
  exact Iff.rfl

/-- Every entry of the third result is in some point's block: row `r` is in the block of point `r / 512`. -/
theorem covered0_6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨a00, a01, a10, a11, a20, a21, a30, a31, a40, a41, a50, a51, a60, a61⟩ := where0 t
  refine ⟨t, flush0_6 t, ?_⟩
  rw [mem_blk0_6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- After the call, the third result holds the tokens' projection against that weight matrix. -/
theorem final0_6 (c : Dev nD) : (dat0 V c).arrAt 6 cfg0.N = proj (V c main_v56) (V c main_v54) :=
  (dat0 V c).arrAt_eq_of_cover 6 _ (fun t _ => flushed0_6_eq V c t) covered0_6

end

end Cert.KernelIdeal.Bridge

end
-- ==== Proof.Spec.lean ====
/-
  The function both programs compute, as plain extended reals indexed by rows and columns.

  A token matrix `x` of 16384 rows (4 batches of 4096 positions) and 1024 columns is projected three times through
  magnitude-preserving weights; the 1024 columns are 16 heads of 64. Within one batch and one head, queries and keys
  are cosine-normalised along the head's 64 columns, the keys scaled down by 64, and the two are contracted over the
  4096 POSITIONS, giving a 64 x 64 score per batch and head; its rows go through a softmax, the values are mixed by it,
  and the result is projected once more and blended half and half with `x`, the blend divided by the norm of the two
  weights.

  Everything here is stated over curried matrices `Fin a → Fin b → EReal`; nothing mentions a program.
-/
import Idealize.ShloMosaic.PureOps.Ideal
import Idealize.ShloMosaic.PureOps.Ideal.Laws

noncomputable section

open scoped BigOperators

namespace Cert.Spec

open Idealize.ShloMosaic

/-- A matrix of extended reals. -/
abbrev Mat (a b : Nat) := Fin a → Fin b → EReal

/-! ## The literals, as the words both programs print -/

/-- The guard added to every norm. -/
def eps : EReal := Ideal.ofBits .f32 0x38D1B717#32
/-- The square root of a weight row's length, 32. -/
def c32 : EReal := Ideal.ofBits .f32 0x42000000#32
/-- The square root of a head's width, 8. -/
def c8 : EReal := Ideal.ofBits .f32 0x41000000#32
/-- The square root of the number of positions, 64. -/
def c64 : EReal := Ideal.ofBits .f32 0x42800000#32
/-- The blend's two equal weights. -/
def half : EReal := Ideal.ofBits .f32 0x3F000000#32
/-- The norm of the blend's weights, as the word the divisor is printed with. -/
def cbal : EReal := Ideal.ofBits .f32 0x3F3504F3#32
/-- The value a maximum starts from. -/
def ninf : EReal := Ideal.ofBits .f32 0xFF800000#32

/-! ## Rows and columns -/

/-- Row `s` of batch `b` in the flat token matrix. -/
def row (b : Fin 4) (s : Fin 4096) : Fin 16384 := ⟨4096 * b.val + s.val, by have := b.isLt; have := s.isLt; omega⟩
/-- Column `h` of head `n`. -/
def col (n : Fin 16) (h : Fin 64) : Fin 1024 := ⟨64 * n.val + h.val, by have := n.isLt; have := h.isLt; omega⟩
/-- The batch a flat row belongs to. -/
def bOf (r : Fin 16384) : Fin 4 := ⟨r.val / 4096, by have := r.isLt; omega⟩
/-- A flat row's position within its batch. -/
def sOf (r : Fin 16384) : Fin 4096 := ⟨r.val % 4096, Nat.mod_lt _ (by norm_num)⟩
/-- The head a column belongs to. -/
def nOf (c : Fin 1024) : Fin 16 := ⟨c.val / 64, by have := c.isLt; omega⟩
/-- A column's place within its head. -/
def hOf (c : Fin 1024) : Fin 64 := ⟨c.val % 64, Nat.mod_lt _ (by norm_num)⟩

theorem bOf_row (b : Fin 4) (s : Fin 4096) : bOf (row b s) = b := by
  apply Fin.ext; show (4096 * b.val + s.val) / 4096 = b.val; have := s.isLt; omega
theorem sOf_row (b : Fin 4) (s : Fin 4096) : sOf (row b s) = s := by
  apply Fin.ext; show (4096 * b.val + s.val) % 4096 = s.val; have := s.isLt; omega
theorem nOf_col (n : Fin 16) (h : Fin 64) : nOf (col n h) = n := by
  apply Fin.ext; show (64 * n.val + h.val) / 64 = n.val; have := h.isLt; omega
theorem hOf_col (n : Fin 16) (h : Fin 64) : hOf (col n h) = h := by
  apply Fin.ext; show (64 * n.val + h.val) % 64 = h.val; have := h.isLt; omega
theorem row_bOf_sOf (r : Fin 16384) : row (bOf r) (sOf r) = r := by
  apply Fin.ext; show 4096 * (r.val / 4096) + r.val % 4096 = r.val; omega
theorem col_nOf_hOf (c : Fin 1024) : col (nOf c) (hOf c) = c := by
  apply Fin.ext; show 64 * (c.val / 64) + c.val % 64 = c.val; omega

/-! ## The projections -/

/-- A weight matrix made magnitude preserving: each row divided by the guard plus its norm over 32, then scaled by
    the gain over 32. -/
def wn (w : Mat 1024 1024) (g : EReal) : Mat 1024 1024 := fun o e =>
  Ideal.div (w o e) (eps + Ideal.div (Ideal.sqrt (∑ k : Fin 1024, w o k * w o k)) c32) * Ideal.div g c32

/-- Every row of `x` against every row of `w`. -/
def lin {M : Nat} (x : Mat M 1024) (w : Mat 1024 1024) : Mat M 1024 := fun r o => ∑ k : Fin 1024, x r k * w o k

/-! ## One batch and one head: 4096 positions by 64 columns -/

/-- Cosine normalisation of a row of 64: the entry over the guard plus the row's norm over 8. -/
def hn {R : Nat} (y : Fin R → Fin 64 → EReal) (r : Fin R) (h : Fin 64) : EReal :=
  Ideal.div (y r h) (eps + Ideal.div (Ideal.sqrt (∑ j : Fin 64, y r j * y r j)) c8)

/-- The score of query column `h` against key column `j`: normalised queries against normalised keys over 64,
    summed over the positions. -/
def score (q k : Fin 4096 → Fin 64 → EReal) (h j : Fin 64) : EReal :=
  ∑ s : Fin 4096, hn q s h * Ideal.div (hn k s j) c64

/-- The greatest of `lo` and a row's entries, then once more against `lo` (as a masked maximum is spelt). -/
def top {n : Nat} (lo : EReal) (s : Fin n → EReal) : EReal := max lo ((Finset.univ : Finset (Fin n)).fold max lo s)

/-- The softmax of score row `h`, at column `j`. -/
def attn (q k : Fin 4096 → Fin 64 → EReal) (h j : Fin 64) : EReal :=
  Ideal.div (Ideal.exp (score q k h j - top ninf (score q k h)))
    (∑ j' : Fin 64, Ideal.exp (score q k h j' - top ninf (score q k h)))

/-- The values of position `s` mixed by row `h` of the softmax. -/
def mixB (q k v : Fin 4096 → Fin 64 → EReal) (s : Fin 4096) (h : Fin 64) : EReal :=
  ∑ j : Fin 64, v s j * attn q k h j

/-! ## The whole function -/

/-- The slab of batch `b` and head `n` of a flat matrix. -/
def slab (y : Mat 16384 1024) (b : Fin 4) (n : Fin 16) : Fin 4096 → Fin 64 → EReal := fun s h => y (row b s) (col n h)

/-- The mixed values in the flat layout: entry `(r, c)` is computed within `r`'s batch and `c`'s head. -/
def mix (q k v : Mat 16384 1024) : Mat 16384 1024 := fun r c =>
  mixB (slab q (bOf r) (nOf c)) (slab k (bOf r) (nOf c)) (slab v (bOf r) (nOf c)) (sOf r) (hOf c)

/-- The result: the mixed values projected once more, blended half and half with the tokens, over the blend's norm. -/
def out (x : Mat 16384 1024) (g : EReal) (wq wk wv wo : Mat 1024 1024) : Mat 16384 1024 := fun r c =>
  Ideal.div (x r c * half
      + lin (mix (lin x (wn wq g)) (lin x (wn wk g)) (lin x (wn wv g))) (wn wo g) r c * half) cbal

end Cert.Spec

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowSoftmax.lean ====
/-
  A row-wise softmax on the vector unit, read at explicit coordinates of a `[B, n]` array.

  * the maximum over the lanes of row `p`, taken from the value the accumulator's word denotes, is the
    greatest of that value and the row's `n` entries;
  * the softmax as a kernel spells it with `keepdims` reductions — subtract the row's maximum (the
    maxima cast to a column and broadcast back along the lanes), exponentiate, divide by the row's sum of
    exponentials (cast and broadcast the same way) — holds at `(p, q)` the share
    `exp (s q - M) / ∑ k, exp (s k - M)` of row `p`, where `s` is the row and `M` its maximum.

  Statements about indices and extended reals only; nothing here mentions a program.
-/
import Idealize.ShloMosaic.PureOps.Ideal
import Idealize.ShloMosaic.PureOps.Ideal.Laws
import Idealize.ShloMosaic.Lib.ValueIdx
import Idealize.ShloMosaic.Lib.Pipeline.Value
import proofs.«146488_j26654567039403_2_alg».proof.Proof.LibRowLayout

noncomputable section

open scoped BigOperators

namespace Cert.RowSoftmax

open Idealize.ShloMosaic Idealize.ShloMosaic.ValueIdx Cert.RowLayout

/-- The greatest of `lo` and a row's entries. -/
def rowMax {n : Nat} (lo : EReal) (s : Fin n → EReal) : EReal := (Finset.univ : Finset (Fin n)).fold max lo s

/-- Entry `q`'s softmax share of its row: its exponential, shifted by the row's maximum, over the sum of
    the row's shifted exponentials. -/
def share {n : Nat} (lo : EReal) (s : Fin n → EReal) (q : Fin n) : EReal :=
  Ideal.div (Ideal.exp (s q - rowMax lo s)) (∑ k : Fin n, Ideal.exp (s k - rowMax lo s))

/-- The vector unit's maximum over the lanes is, in row `p`, the greatest of the accumulator's value and the
    row's `n` entries. -/
theorem laneMax_apply {B n : Nat} (v : FVec Ideal (⟨2, ![B, n]⟩ : Shape) .f32) (acc : BitVec 32)
    (h : Shape.Reduces (⟨2, ![B, n]⟩ : Shape) [(1 : Fin 2)] (⟨1, ![B]⟩ : Shape)) (hφ : FKind.Formats .f32)
    (hacc : acc = FKind.maximumf.neutral .f32 hφ) (p : Fin B) :
    multiReduction .maximumf [(1 : Fin 2)] (⟨1, ![B]⟩ : Shape) v acc h hφ hacc (ix1 p)
      = rowMax (Ideal.ofBits .f32 acc) (fun k : Fin n => v (ix2 p k)) := by
  refine (Ideal.multiReduction_maximumf_single v acc h hφ hacc (ix1 p)).trans ?_
  unfold rowMax
  refine Finset.fold_congr fun k _ => ?_
  exact congrArg v (funext fun a => Fin.ext (by match a with | ⟨0, _⟩ => rfl | ⟨1, _⟩ => rfl))

/-- THE ROW SOFTMAX with `keepdims` reductions: at `(p, q)` it is entry `q`'s share of row `p`. -/
theorem rowSoftmax_apply {B n : Nat} (S : FVec Ideal (⟨2, ![B, n]⟩ : Shape) .f32) (acc : BitVec 32)
    (hred : Shape.Reduces (⟨2, ![B, n]⟩ : Shape) [(1 : Fin 2)] (⟨1, ![B]⟩ : Shape))
    (hφM : FKind.Formats .f32) (haccM : acc = FKind.maximumf.neutral .f32 hφM)
    (hφA : FKind.Formats .f32) (haccA : (0x00000000#32 : BitVec 32) = FKind.add.neutral .f32 hφA)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf
        (exp (subf S (broadcastTo (⟨2, ![B, n]⟩ : Shape)
          (shapeCast (⟨2, ![B, 1]⟩ : Shape) (multiReduction .maximumf [(1 : Fin 2)] (⟨1, ![B]⟩ : Shape) S acc hred hφM haccM) hcast) hbc)))
        (broadcastTo (⟨2, ![B, n]⟩ : Shape)
          (shapeCast (⟨2, ![B, 1]⟩ : Shape)
            (multiReduction .add [(1 : Fin 2)] (⟨1, ![B]⟩ : Shape)
              (exp (subf S (broadcastTo (⟨2, ![B, n]⟩ : Shape)
                (shapeCast (⟨2, ![B, 1]⟩ : Shape) (multiReduction .maximumf [(1 : Fin 2)] (⟨1, ![B]⟩ : Shape) S acc hred hφM haccM) hcast) hbc)))
              0x00000000#32 hred hφA haccA) hcast) hbc) (ix2 p q)
      = share (Ideal.ofBits .f32 acc) (fun k : Fin n => S (ix2 p k)) q := by
  have hM : ∀ k : Fin n, broadcastTo (⟨2, ![B, n]⟩ : Shape)
        (shapeCast (⟨2, ![B, 1]⟩ : Shape) (multiReduction .maximumf [(1 : Fin 2)] (⟨1, ![B]⟩ : Shape) S acc hred hφM haccM) hcast) hbc (ix2 p k)
      = rowMax (Ideal.ofBits .f32 acc) (fun k : Fin n => S (ix2 p k)) := fun k =>
    (bcastCol_apply _ hbc p k).trans ((castCol_apply _ hcast p).trans (laneMax_apply S acc hred hφM haccM p))
  have hE : ∀ k : Fin n, (exp (subf S (broadcastTo (⟨2, ![B, n]⟩ : Shape)
        (shapeCast (⟨2, ![B, 1]⟩ : Shape) (multiReduction .maximumf [(1 : Fin 2)] (⟨1, ![B]⟩ : Shape) S acc hred hφM haccM) hcast) hbc))
        : FVec Ideal (⟨2, ![B, n]⟩ : Shape) .f32) (ix2 p k)
      = Ideal.exp (S (ix2 p k) - rowMax (Ideal.ofBits .f32 acc) (fun k : Fin n => S (ix2 p k))) := fun k =>
    congrArg (fun z => Ideal.exp (S (ix2 p k) - z)) (hM k)
  refine (rowShare_apply _ hred hφA haccA hcast hbc p q).trans ?_
  unfold share
  rw [hE q]
  exact congrArg _ (Finset.sum_congr rfl fun k _ => hE k)

end Cert.RowSoftmax

end
-- ==== Proof.AttnBlock1.lean ====
/-
  The two contractions of one attention head, read at an index, and the keys' scale.

  * queries against keys over the 4096 positions: entry (h, j) of the 64 x 64 score is the sum over the positions s of
    the query's entry (s, h) times the key's entry (s, j);
  * values against a 64 x 64 matrix over its second axis: entry (s, h) of the result is the sum over j of the value's
    entry (s, j) times the matrix's entry (h, j);
  * multiplying by the word for 1/64 is dividing by the word for 64, on every extended real.
-/
import proofs.«146488_j26654567039403_2_alg».proof.Proof.Gen.KernelIdeal.Frame
import proofs.«146488_j26654567039403_2_alg».proof.Proof.Spec
import proofs.«146488_j26654567039403_2_alg».proof.Proof.LibRowLayout
import proofs.«146488_j26654567039403_2_alg».proof.Proof.LibRowSoftmax
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.AttnBlock

open Idealize.ShloMosaic Idealize.ShloMosaic.ValueIdx Cert.KernelIdeal Cert.KernelIdeal.Gen

/-- The word the keys are scaled by denotes 1/64 and the specification's divisor 64: the product is the quotient,
    at the infinities too. -/
theorem scale_eq (x : EReal) : x * Ideal.ofBits .f32 0x3C800000#32 = Ideal.div x Cert.Spec.c64 := by
  have h1 : Ideal.ofBits .f32 0x3C800000#32 = ((1 / 64 : ℝ) : EReal) := by
    simp [Ideal.ofBits, Ideal.ieee, -EReal.coe_mul]; norm_num
  have h2 : Cert.Spec.c64 = ((64 : ℝ) : EReal) := by
    unfold Cert.Spec.c64
    simp [Ideal.ofBits, Ideal.ieee, -EReal.coe_mul]; norm_num
  rw [h1, h2, Ideal.div_coe (by norm_num)]

/-! ## Queries against keys over the positions -/

theorem scoreL_0 (i : S64x64.Idx) (q : dot_S4096x64_S4096x64_S64x64_0_0_1_1_n_n.contr.Idx) : (dot_S4096x64_S4096x64_S64x64_0_0_1_1_n_n.lhsIdx i q 0).val = (q ⟨0, by decide⟩).val :=
  dot_S4096x64_S4096x64_S64x64_0_0_1_1_n_n.lhsIdx_val_of_single rfl i q
theorem scoreL_1 (i : S64x64.Idx) (q : dot_S4096x64_S4096x64_S64x64_0_0_1_1_n_n.contr.Idx) : (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem scoreR_0 (i : S64x64.Idx) (q : dot_S4096x64_S4096x64_S64x64_0_0_1_1_n_n.contr.Idx) : (dot_S4096x64_S4096x64_S64x64_0_0_1_1_n_n.rhsIdx i q 0).val = (q ⟨0, by decide⟩).val :=
  dot_S4096x64_S4096x64_S64x64_0_0_1_1_n_n.rhsIdx_val_of_single rfl i q
theorem scoreR_1 (i : S64x64.Idx) (q : dot_S4096x64_S4096x64_S64x64_0_0_1_1_n_n.contr.Idx) : (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- Queries against keys, contracted over the positions into a zero accumulator: entry (h, j) is the sum over the
    positions of the products of column h of the left operand and column j of the right. -/
theorem scoreMat_apply (l r : FVec Ideal S4096x64 .bf16) (h j : Fin 64) :
    FloatOps.matmul dot_S4096x64_S4096x64_S64x64_0_0_1_1_n_n none l r (constant (F := Ideal) S64x64 .f32 0x00000000#32) (ix2 h j)
      = ∑ s : Fin 4096, l (ix2 s h) * r (ix2 s j) := by
  rw [Ideal.matmul_constant_zero_apply, ← Equiv.sum_comp (contrEquiv1 dot_S4096x64_S4096x64_S64x64_0_0_1_1_n_n 4096 rfl rfl).symm]
  refine Finset.sum_congr rfl fun k _ => ?_
  have hk := contrEquiv1_symm_val dot_S4096x64_S4096x64_S64x64_0_0_1_1_n_n 4096 rfl rfl k
  have el : dot_S4096x64_S4096x64_S64x64_0_0_1_1_n_n.lhsIdx (ix2 h j) ((contrEquiv1 dot_S4096x64_S4096x64_S64x64_0_0_1_1_n_n 4096 rfl rfl).symm k) = ix2 k h := funext fun a => Fin.ext (by
    match a with
    | ⟨0, _⟩ => exact (scoreL_0 _ _).trans hk
    | ⟨1, _⟩ => exact scoreL_1 _ _)
  have er : dot_S4096x64_S4096x64_S64x64_0_0_1_1_n_n.rhsIdx (ix2 h j) ((contrEquiv1 dot_S4096x64_S4096x64_S64x64_0_0_1_1_n_n 4096 rfl rfl).symm k) = ix2 k j := funext fun a => Fin.ext (by
    match a with
    | ⟨0, _⟩ => exact (scoreR_0 _ _).trans hk
    | ⟨1, _⟩ => exact scoreR_1 _ _)
  rw [el, er]

/-! ## Values against a 64 x 64 matrix over its second axis -/

theorem mixL_0 (i : S4096x64.Idx) (q : dot_S4096x64_S64x64_S4096x64_1_1_0_0_n_n.contr.Idx) : (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
theorem mixL_1 (i : S4096x64.Idx) (q : dot_S4096x64_S64x64_S4096x64_1_1_0_0_n_n.contr.Idx) : (dot_S4096x64_S64x64_S4096x64_1_1_0_0_n_n.lhsIdx i q 1).val = (q ⟨0, by decide⟩).val :=
  dot_S4096x64_S64x64_S4096x64_1_1_0_0_n_n.lhsIdx_val_of_single rfl i q
theorem mixR_0 (i : S4096x64.Idx) (q : dot_S4096x64_S64x64_S4096x64_1_1_0_0_n_n.contr.Idx) : (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
theorem mixR_1 (i : S4096x64.Idx) (q : dot_S4096x64_S64x64_S4096x64_1_1_0_0_n_n.contr.Idx) : (dot_S4096x64_S64x64_S4096x64_1_1_0_0_n_n.rhsIdx i q 1).val = (q ⟨0, by decide⟩).val :=
  dot_S4096x64_S64x64_S4096x64_1_1_0_0_n_n.rhsIdx_val_of_single rfl i q

/-- Values against a 64 x 64 matrix, contracted over the second axis of both into a zero accumulator: entry (s, h) is
    the sum over j of the value's entry (s, j) times the matrix's entry (h, j). -/
theorem mixMat_apply (l : FVec Ideal S4096x64 .bf16) (r : FVec Ideal S64x64 .bf16) (s : Fin 4096) (h : Fin 64) :
    FloatOps.matmul dot_S4096x64_S64x64_S4096x64_1_1_0_0_n_n none l r (constant (F := Ideal) S4096x64 .f32 0x00000000#32) (ix2 s h)
      = ∑ j : Fin 64, l (ix2 s j) * r (ix2 h j) := by
  rw [Ideal.matmul_constant_zero_apply, ← Equiv.sum_comp (contrEquiv1 dot_S4096x64_S64x64_S4096x64_1_1_0_0_n_n 64 rfl rfl).symm]
  refine Finset.sum_congr rfl fun k _ => ?_
  have hk := contrEquiv1_symm_val dot_S4096x64_S64x64_S4096x64_1_1_0_0_n_n 64 rfl rfl k
  have el : dot_S4096x64_S64x64_S4096x64_1_1_0_0_n_n.lhsIdx (ix2 s h) ((contrEquiv1 dot_S4096x64_S64x64_S4096x64_1_1_0_0_n_n 64 rfl rfl).symm k) = ix2 s k := funext fun a => Fin.ext (by
    match a with
    | ⟨0, _⟩ => exact mixL_0 _ _
    | ⟨1, _⟩ => exact (mixL_1 _ _).trans hk)
  have er : dot_S4096x64_S64x64_S4096x64_1_1_0_0_n_n.rhsIdx (ix2 s h) ((contrEquiv1 dot_S4096x64_S64x64_S4096x64_1_1_0_0_n_n 64 rfl rfl).symm k) = ix2 h k := funext fun a => Fin.ext (by
    match a with
    | ⟨0, _⟩ => exact mixR_0 _ _
    | ⟨1, _⟩ => exact (mixR_1 _ _).trans hk)
  rw [el, er]

end Cert.AttnBlock

end
-- ==== Proof.AttnBlock2.lean ====
/-
  One attention head on a 4096 x 64 block of queries, keys and values, read at an index.

  * the cosine normalisation of a row of 64: the entry over the guard plus the row's norm over 8;
  * the exponentials of a 64 x 64 score shifted by each row's maximum, the maximum spelt as the greatest of minus
    infinity and the lane maximum taken from minus infinity;
  * the values mixed by the rows' shares: entry (s, h) is the sum over j of the value (s, j) times row h's share at j;
  * the three together are the specification's mixed values of one batch and head.
-/
import proofs.«146488_j26654567039403_2_alg».proof.Proof.AttnBlock1

noncomputable section

open scoped BigOperators

namespace Cert.AttnBlock

open Idealize.ShloMosaic Idealize.ShloMosaic.ValueIdx Cert.KernelIdeal Cert.KernelIdeal.Gen Cert.RowLayout Cert.RowSoftmax

/-! ## The three stages as the body spells them -/

/-- Each row of 64 divided by the guard plus its norm over 8. -/
def cosNorm (v : FVec Ideal S4096x64 .f32) : FVec Ideal S4096x64 .f32 :=
  divf v (broadcastTo S4096x64 (addf (broadcast S4096x1 (Scalar.ofBits .f32 0x38D1B717#32))
    (divf (sqrt (shapeCast S4096x1 (multiReduction .add [1] S4096 (mulf v v) 0x00000000#32 reduces_S4096x64_S4096 (.inl rfl) rfl) shapeCasts_S4096_S4096x1))
      (broadcast S4096x1 (Scalar.ofBits .f32 0x41000000#32)))) broadcasts_S4096x1_S4096x64)

/-- The score of normalised queries against normalised, scaled keys over the positions. -/
def scoreOf (q k : FVec Ideal S4096x64 .f32) : FVec Ideal S64x64 .f32 :=
  matmul dot_S4096x64_S4096x64_S64x64_0_0_1_1_n_n none (truncf .bf16 (cosNorm q) bitsLt_bf16_f32)
    (truncf .bf16 (mulf (cosNorm k) (broadcast S4096x64 (Scalar.ofBits .f32 0x3C800000#32))) bitsLt_bf16_f32)
    (constant S64x64 .f32 0x00000000#32)

/-- The exponentials of a score's entries shifted by their row's maximum. -/
def expRows (S : FVec Ideal S64x64 .f32) : FVec Ideal S64x64 .f32 :=
  exp (subf S (broadcastTo S64x64 (shapeCast S64x1 (maximumf (broadcast S64 (Scalar.ofBits .f32 0xFF800000#32))
    (multiReduction .maximumf [1] S64 S 0xFF800000#32 reduces_S64x64_S64 (.inl rfl) rfl)) shapeCasts_S64_S64x1) broadcasts_S64x1_S64x64))

/-- The values mixed by the rows' shares of their own totals. -/
def mixBy (v : FVec Ideal S4096x64 .bf16) (E : FVec Ideal S64x64 .f32) : FVec Ideal S4096x64 .bf16 :=
  truncf .bf16 (matmul dot_S4096x64_S64x64_S4096x64_1_1_0_0_n_n none v
    (truncf .bf16 (divf E (broadcastTo S64x64 (shapeCast S64x1 (multiReduction .add [1] S64 E 0x00000000#32 reduces_S64x64_S64 (.inl rfl) rfl) shapeCasts_S64_S64x1) broadcasts_S64x1_S64x64)) bitsLt_bf16_f32)
    (constant S4096x64 .f32 0x00000000#32)) bitsLt_bf16_f32

/-! ## Each stage at an index -/

/-- The cosine normalisation at (s, h) is the specification's, of the block read as a curried matrix. -/
theorem cosNorm_apply (v : FVec Ideal S4096x64 .f32) (s : Fin 4096) (h : Fin 64) :
    cosNorm v (ix2 s h) = Cert.Spec.hn (fun s' h' => v (ix2 s' h')) s h := by
  unfold cosNorm Cert.Spec.hn
  refine congrArg (Ideal.div (v (ix2 s h))) ?_
  refine (bcastCol_apply _ broadcasts_S4096x1_S4096x64 s h).trans ?_
  refine congrArg (fun z => Cert.Spec.eps + Ideal.div (Ideal.sqrt z) Cert.Spec.c8) ?_
  exact (castCol_apply _ shapeCasts_S4096_S4096x1 s).trans (laneSum_apply (mulf v v) reduces_S4096x64_S4096 (.inl rfl) rfl s)

/-- The score at (h, j) is the specification's. -/
theorem scoreOf_apply (q k : FVec Ideal S4096x64 .f32) (h j : Fin 64) :
    scoreOf q k (ix2 h j) = Cert.Spec.score (fun s' h' => q (ix2 s' h')) (fun s' h' => k (ix2 s' h')) h j := by
  unfold scoreOf Cert.Spec.score
  refine (scoreMat_apply _ _ h j).trans ?_
  refine Finset.sum_congr rfl fun s _ => ?_
  show cosNorm q (ix2 s h) * (cosNorm k (ix2 s j) * Ideal.ofBits .f32 0x3C800000#32) = _
  rw [cosNorm_apply, cosNorm_apply, scale_eq]

/-- The shifted exponential at (h, j): the entry minus its row's maximum, the maximum as the specification spells it. -/
theorem expRows_apply (S : FVec Ideal S64x64 .f32) (h j : Fin 64) :
    expRows S (ix2 h j) = Ideal.exp (S (ix2 h j) - Cert.Spec.top Cert.Spec.ninf (fun j' => S (ix2 h j'))) := by
  unfold expRows
  refine congrArg (fun z => Ideal.exp (S (ix2 h j) - z)) ?_
  refine (bcastCol_apply _ broadcasts_S64x1_S64x64 h j).trans ((castCol_apply _ shapeCasts_S64_S64x1 h).trans ?_)
  unfold Cert.Spec.top
  exact congrArg (max Cert.Spec.ninf) (laneMax_apply S 0xFF800000#32 reduces_S64x64_S64 (.inl rfl) rfl h)

/-- The mixed values at (s, h): the sum over j of the value (s, j) times row h's share at j. -/
theorem mixBy_apply (v : FVec Ideal S4096x64 .bf16) (E : FVec Ideal S64x64 .f32) (s : Fin 4096) (h : Fin 64) :
    mixBy v E (ix2 s h) = ∑ j : Fin 64, v (ix2 s j) * Ideal.div (E (ix2 h j)) (∑ j' : Fin 64, E (ix2 h j')) := by
  unfold mixBy
  refine (mixMat_apply v _ s h).trans ?_
  refine Finset.sum_congr rfl fun j _ => congrArg (v (ix2 s j) * ·) ?_
  exact rowShare_apply E reduces_S64x64_S64 (.inl rfl) rfl shapeCasts_S64_S64x1 broadcasts_S64x1_S64x64 h j

/-! ## The head -/

/-- ONE HEAD: the values mixed by the softmax of the normalised queries against the normalised, scaled keys are the
    specification's mixed values of the three blocks read as curried matrices. -/
theorem head_apply (q k : FVec Ideal S4096x64 .f32) (v : FVec Ideal S4096x64 .bf16) (s : Fin 4096) (h : Fin 64) :
    mixBy v (expRows (scoreOf q k)) (ix2 s h)
      = Cert.Spec.mixB (fun s' h' => q (ix2 s' h')) (fun s' h' => k (ix2 s' h')) (fun s' h' => v (ix2 s' h')) s h := by
  have hS : ∀ a b : Fin 64, scoreOf q k (ix2 a b) = Cert.Spec.score (fun s' h' => q (ix2 s' h')) (fun s' h' => k (ix2 s' h')) a b :=
    scoreOf_apply q k
  have hE : ∀ a b : Fin 64, expRows (scoreOf q k) (ix2 a b)
      = Ideal.exp (Cert.Spec.score (fun s' h' => q (ix2 s' h')) (fun s' h' => k (ix2 s' h')) a b
          - Cert.Spec.top Cert.Spec.ninf (Cert.Spec.score (fun s' h' => q (ix2 s' h')) (fun s' h' => k (ix2 s' h')) a)) := fun a b => by
    rw [expRows_apply, hS a b]
    exact congrArg (fun f => Ideal.exp (_ - Cert.Spec.top Cert.Spec.ninf f)) (funext fun j' => hS a j')
  refine (mixBy_apply v _ s h).trans ?_
  unfold Cert.Spec.mixB Cert.Spec.attn
  refine Finset.sum_congr rfl fun j _ => congrArg (v (ix2 s j) * ·) ?_
  rw [hE h j]
  exact congrArg (Ideal.div _) (Finset.sum_congr rfl fun j' _ => hE h j')

end Cert.AttnBlock

end
-- ==== Proof.AttnBlock.lean ====
/-
  The attention block of one column slab: two heads of 64 lanes side by side in 128.

  * a head's 64 columns sliced out of the 128 at lane offset 0 or 64, read at (s, h), are the slab at (s, 64 p + h);
  * the body's payloads are the head's three stages (normalise and score, shifted exponentials, mix by shares) of the
    slab's slices, by unfolding;
  * of the two stores, lanes 64..127 last and lanes 0..63 before it, an index in head 1 reads the last store's payload
    and an index in head 0, which the last store does not touch, the earlier one's;
  * so the output block at (s, 64 p + h) is the specification's mixed values of head p's columns of the three input
    blocks.
-/
import proofs.«146488_j26654567039403_2_alg».proof.Proof.AttnBlock2

noncomputable section

open scoped BigOperators

namespace Cert.AttnBlock

open Idealize.ShloMosaic Idealize.ShloMosaic.ValueIdx Cert.KernelIdeal Cert.KernelIdeal.Gen

/-- Lane `h` of head `p` in a 128-lane slab. -/
def lane (p : Fin 2) (h : Fin 64) : Fin 128 := ⟨64 * p.val + h.val, by have := p.isLt; have := h.isLt; omega⟩

/-! ## A head's columns out of the slab -/

/-- The slice at lane offset 0, at (s, h), is the slab at (s, lane 0 h). -/
theorem slice0_apply {α : Type} (x : S4096x128.Idx → α) (s : Fin 4096) (h : Fin 64) :
    extractStridedSlice S4096x64 ![0, 0] x slices_S4096x128_o0_0_S4096x64 (ix2 s h) = x (ix2 s (lane 0 h)) :=
  extractStridedSlice_apply ![0, 0] x slices_S4096x128_o0_0_S4096x64 (ix2 s h) (ix2 s (lane 0 h)) (fun a => match a with
    | ⟨0, _⟩ => by show s.val = 0 + s.val; omega
    | ⟨1, _⟩ => by show 64 * 0 + h.val = 0 + h.val; omega)

/-- The slice at lane offset 64, at (s, h), is the slab at (s, lane 1 h). -/
theorem slice64_apply {α : Type} (x : S4096x128.Idx → α) (s : Fin 4096) (h : Fin 64) :
    extractStridedSlice S4096x64 ![0, 64] x slices_S4096x128_o0_64_S4096x64 (ix2 s h) = x (ix2 s (lane 1 h)) :=
  extractStridedSlice_apply ![0, 64] x slices_S4096x128_o0_64_S4096x64 (ix2 s h) (ix2 s (lane 1 h)) (fun a => match a with
    | ⟨0, _⟩ => by show s.val = 0 + s.val; omega
    | ⟨1, _⟩ => by show 64 * 1 + h.val = 64 + h.val; omega)

/-! ## The payloads are the head's stages -/

theorem pay6_eq (x0 x1 : Vec Ideal S4096x128 .f32) :
    k1_pay6 (F := Ideal) x0 x1
      = expRows (scoreOf (extractStridedSlice S4096x64 ![0, 0] (k1_pay2 (F := Ideal) x0) slices_S4096x128_o0_0_S4096x64)
          (extractStridedSlice S4096x64 ![0, 0] (k1_pay3 (F := Ideal) x1) slices_S4096x128_o0_0_S4096x64)) := rfl

theorem pay9_eq (v1 v3 : FVec Ideal S4096x128 .f32) :
    k1_pay9 (F := Ideal) v1 v3
      = expRows (scoreOf (extractStridedSlice S4096x64 ![0, 64] v1 slices_S4096x128_o0_64_S4096x64)
          (extractStridedSlice S4096x64 ![0, 64] v3 slices_S4096x128_o0_64_S4096x64)) := rfl

theorem pay7_eq (v30 : FVec Ideal S4096x64 .bf16) (v40 : FVec Ideal S64x64 .f32) :
    k1_pay7 (F := Ideal) v30 v40 = mixBy v30 v40 := rfl

theorem pay1_eq (v73 : FVec Ideal S4096x64 .bf16) (v1 v3 : FVec Ideal S4096x128 .f32) :
    k1_pay1 (F := Ideal) v73 (k1_pay9 (F := Ideal) v1 v3) (k1_pay10 (F := Ideal) v1 v3) = mixBy v73 (k1_pay9 (F := Ideal) v1 v3) := rfl

/-- The body's casts of the blocks to their own shapes change nothing. -/
theorem pay2_eq (x : Vec Ideal S4096x128 .f32) : k1_pay2 (F := Ideal) x = x := shapeCast_self x _
theorem pay3_eq (x : Vec Ideal S4096x128 .f32) : k1_pay3 (F := Ideal) x = x := shapeCast_self x _
theorem pay4_eq (x : Vec Ideal S4096x128 .bf16) : k1_pay4 (F := Ideal) x = x := shapeCast_self x _

/-- The specification's mixed values depend on the three matrices only. -/
theorem mixB_congr {q q' k k' v v' : Fin 4096 → Fin 64 → EReal} (hq : q = q') (hk : k = k') (hv : v = v')
    (s : Fin 4096) (h : Fin 64) : Cert.Spec.mixB q k v s h = Cert.Spec.mixB q' k' v' s h := by
  rw [hq, hk, hv]

/-! ## The two stores' payloads at an index -/

/-- Head 0: the payload stored to lanes 0..63, at (s, h). -/
theorem piece0_apply (x0 x1 : Vec Ideal S4096x128 .f32) (x2 : Vec Ideal S4096x128 .bf16) (s : Fin 4096) (h : Fin 64) :
    k1_pay7 (F := Ideal) (k1_pay5 (F := Ideal) x2) (k1_pay6 (F := Ideal) x0 x1) (ix2 s h)
      = Cert.Spec.mixB (fun s' h' => x0 (ix2 s' (lane 0 h'))) (fun s' h' => x1 (ix2 s' (lane 0 h')))
          (fun s' h' => x2 (ix2 s' (lane 0 h'))) s h := by
  rw [pay7_eq, pay6_eq]
  refine (head_apply _ _ _ s h).trans ?_
  exact mixB_congr
    (funext fun s' => funext fun h' => (slice0_apply _ s' h').trans (congrFun (pay2_eq x0) _))
    (funext fun s' => funext fun h' => (slice0_apply _ s' h').trans (congrFun (pay3_eq x1) _))
    (funext fun s' => funext fun h' => (slice0_apply _ s' h').trans (congrFun (pay4_eq x2) _)) s h

/-- Head 1: the payload stored to lanes 64..127, at (s, h). -/
theorem piece1_apply (x0 x1 : Vec Ideal S4096x128 .f32) (x2 : Vec Ideal S4096x128 .bf16) (s : Fin 4096) (h : Fin 64) :
    k1_pay1 (F := Ideal) (k1_pay8 (F := Ideal) (k1_pay4 (F := Ideal) x2))
        (k1_pay9 (F := Ideal) (k1_pay2 (F := Ideal) x0) (k1_pay3 (F := Ideal) x1))
        (k1_pay10 (F := Ideal) (k1_pay2 (F := Ideal) x0) (k1_pay3 (F := Ideal) x1)) (ix2 s h)
      = Cert.Spec.mixB (fun s' h' => x0 (ix2 s' (lane 1 h'))) (fun s' h' => x1 (ix2 s' (lane 1 h')))
          (fun s' h' => x2 (ix2 s' (lane 1 h'))) s h := by
  rw [pay1_eq, pay9_eq]
  refine (head_apply _ _ _ s h).trans ?_
  exact mixB_congr
    (funext fun s' => funext fun h' => (slice64_apply _ s' h').trans (congrFun (pay2_eq x0) _))
    (funext fun s' => funext fun h' => (slice64_apply _ s' h').trans (congrFun (pay3_eq x1) _))
    (funext fun s' => funext fun h' => (slice64_apply _ s' h').trans (congrFun (pay4_eq x2) _)) s h

/-! ## The two stores read at an index of the block -/

theorem off_zero : (![0, 0] : Fin S4096x128.rank → Nat) = fun _ => 0 :=
  funext fun a => by match a with | ⟨0, _⟩ => rfl | ⟨1, _⟩ => rfl

/-- A load of the whole block is the block. -/
theorem ld_whole {e : EltTy} (x : Vec Ideal S4096x128 e) : View.ld x r1_0 = x := View.ld_unit_zero off_zero _ x

/-- Position (s, h) of the rectangle of lanes 0..63 is the block's (s, lane 0 h); -/
theorem emb_r1_1 (s : Fin 4096) (h : Fin 64) : r1_1.emb (ix2 s h) = ix2 s (lane 0 h) :=
  funext fun a => Fin.ext (by
    match a with
    | ⟨0, _⟩ => show 0 + 1 * s.val = s.val; omega
    | ⟨1, _⟩ => show 0 + 1 * h.val = 64 * 0 + h.val; omega)

/-- of the rectangle of lanes 64..127, the block's (s, lane 1 h). -/
theorem emb_r1_2 (s : Fin 4096) (h : Fin 64) : r1_2.emb (ix2 s h) = ix2 s (lane 1 h) :=
  funext fun a => Fin.ext (by
    match a with
    | ⟨0, _⟩ => show 0 + 1 * s.val = s.val; omega
    | ⟨1, _⟩ => show 64 + 1 * h.val = 64 * 1 + h.val; omega)

/-- A lane of head 0 is none of lanes 64..127. -/
theorem not_mem_r1_2 (s : Fin 4096) (h : Fin 64) : (ix2 s (lane 0 h) : S4096x128.Idx) ∉ r1_2.set := by
  intro hm
  have h1 := (Rect.mem_set_unit.mp hm) 1
  have h2 : 64 ≤ 64 * 0 + h.val := h1.1
  have := h.isLt
  omega

/-- Of two stores, lanes 64..127 last and lanes 0..63 before it, a lane of head 1 reads the last one's payload; -/
theorem canon_head1 (P1 P0 : Vec Ideal S4096x64 .bf16) (s : Fin 4096) (h : Fin 64) :
    View.canon ([⟨r1_2, P1⟩, ⟨r1_1, P0⟩] : List (View.Piece (Elt Ideal) S4096x128 .bf16)) (ix2 s (lane 1 h)) = P1 (ix2 s h) := by
  rw [← emb_r1_2 s h]
  exact View.canon_cons_emb r1_2 P1 [⟨r1_1, P0⟩] (ix2 s h)

/-- a lane of head 0, which the last store does not touch, the earlier one's. -/
theorem canon_head0 (P1 P0 : Vec Ideal S4096x64 .bf16) (s : Fin 4096) (h : Fin 64) :
    View.canon ([⟨r1_2, P1⟩, ⟨r1_1, P0⟩] : List (View.Piece (Elt Ideal) S4096x128 .bf16)) (ix2 s (lane 0 h)) = P0 (ix2 s h) := by
  rw [View.canon_cons_of_not_mem (⟨r1_2, P1⟩ : View.Piece (Elt Ideal) S4096x128 .bf16) [⟨r1_1, P0⟩] (not_mem_r1_2 s h),
    ← emb_r1_1 s h]
  exact View.canon_cons_emb r1_1 P0 [] (ix2 s h)

/-- THE OUTPUT BLOCK after the body, at lane h of head p of position s: the specification's mixed values of head p's
    columns of the three input blocks. -/
theorem out1_3_apply (x0 x1 : Vec Ideal S4096x128 .f32) (x2 : Vec Ideal S4096x128 .bf16) (s : Fin 4096) (p : Fin 2) (h : Fin 64) :
    Cert.KernelIdeal.Gen.out1_3 (F := Ideal) x0 x1 x2 (ValueIdx.ix2 s (lane p h))
      = Cert.Spec.mixB (fun s' h' => x0 (ValueIdx.ix2 s' (lane p h'))) (fun s' h' => x1 (ValueIdx.ix2 s' (lane p h')))
          (fun s' h' => x2 (ValueIdx.ix2 s' (lane p h'))) s h := by
  unfold out1_3
  rw [ld_whole x0, ld_whole x1, ld_whole x2]
  rcases p with ⟨_ | _ | n, hp⟩
  · exact (canon_head0 _ _ s h).trans (piece0_apply x0 x1 x2 s h)
  · exact (canon_head1 _ _ s h).trans (piece1_apply x0 x1 x2 s h)
  · omega

end Cert.AttnBlock

end
-- ==== Proof.Region1.lean ====
/-
  The second call: the values of every batch and head mixed by the softmax of its scores. The call walks the 16384 rows
  and 1024 columns of the three projection arrays in 32 blocks of 4096 rows by 128 columns: point `t` is batch `t / 8`
  and the pair of heads `2 (t % 8)`, `2 (t % 8) + 1`. Within a block, lane `l` belongs to the head `l / 64` of the pair, at
  place `l % 64` in it, and the block's result at row `s` and that lane is the mixed value of that head at position `s`,
  computed from the three blocks' 64 lanes of that head. So the result array is, entry by entry, the mixed values of the
  entry's batch and head — whatever the block the entry sits in.
-/
import proofs.«146488_j26654567039403_2_alg».proof.Proof.Gen.KernelIdeal.Frame
import proofs.«146488_j26654567039403_2_alg».proof.Proof.AttnBlock
import proofs.«146488_j26654567039403_2_alg».proof.Proof.Spec
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.AttnBlock (lane)

/-- The mixed values as a function of the three projection arrays. -/
def mixed (Q K Vv : S16384x1024.Idx → EReal) : S16384x1024.Idx → EReal :=
  fun i => Cert.Spec.mix (fun r c => Q (ix2 r c)) (fun r c => K (ix2 r c)) (fun r c => Vv (ix2 r c)) (i 0) (i 1)

/-! ## Lanes of a block: two heads of 64 -/

/-- The head of the pair that lane `l` belongs to. -/
def pair1 (l : Fin 128) : Fin 2 := ⟨l.val / 64, by have := l.isLt; omega⟩
/-- Lane `l`'s place within its head. -/
def place1 (l : Fin 128) : Fin 64 := ⟨l.val % 64, Nat.mod_lt _ (by norm_num)⟩

/-- Every lane is a place within a head of the pair. -/
theorem lane1_decomp (l : Fin 128) : l = lane (pair1 l) (place1 l) := by
  apply Fin.ext; show l.val = 64 * (l.val / 64) + l.val % 64; omega

/-- The block's result at any entry: the mixed value of the entry's head at the entry's row, from the three blocks'
    lanes of that head. -/
theorem out1_3_at (x0 x1 : Vec Ideal S4096x128 .f32) (x2 : Vec Ideal S4096x128 .bf16) (y : S4096x128.Idx) :
    out1_3 (F := Ideal) x0 x1 x2 y
      = Cert.Spec.mixB (fun s' h' => x0 (ix2 s' (lane (pair1 (y 1)) h'))) (fun s' h' => x1 (ix2 s' (lane (pair1 (y 1)) h')))
          (fun s' h' => x2 (ix2 s' (lane (pair1 (y 1)) h'))) (y 0) (place1 (y 1)) := by
  obtain ⟨s, l, rfl⟩ : ∃ (s : Fin 4096) (l : Fin 128), y = ix2 s l := ⟨y 0, y 1, eq_ix2 y⟩
  exact (congrArg (fun z => out1_3 (F := Ideal) x0 x1 x2 (ix2 s z)) (lane1_decomp l)).trans
    (Cert.AttnBlock.out1_3_apply x0 x1 x2 s (pair1 l) (place1 l))

/-- The mixing of one batch and head depends on its five arguments only. -/
theorem mixB_congr1 {q q' k k' v v' : Fin 4096 → Fin 64 → EReal} {s s' : Fin 4096} {h h' : Fin 64}
    (hq : q = q') (hk : k = k') (hv : v = v') (hs : s = s') (hh : h = h') :
    Cert.Spec.mixB q k v s h = Cert.Spec.mixB q' k' v' s' h' := by
  subst hq hk hv hs hh; rfl

/-! ## From blocks to the array -/

/-- The printed index maps, decided over the 32 points: every window sits at block row `t / 8` and block column `t % 8`. -/
theorem where1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = t.val % 8 :=
  (by decide +kernel : ∀ t : Fin grid1.N, _)

section
variable (V : (c : Dev nD) → (b : Ref sig .tc) → Buf (Elt Ideal) ((c : Thread nD τ).loc b))

/-- What point `t` writes back to the result is block `t` of the mixed values of the three projection arrays. -/
theorem flushed1_3_eq (c : Dev nD) (t : Fin cfg1.N) :
    (dat1 V c).flushed 3 t
      = ((cfg1.win 3).blk t).view.read (Elt Ideal) (mixed (V c main_v57_0) (V c main_v57_1) (V c main_v57_2)) := by
  show (cfg1.win 3).cut (grid1.coords t) ((dat1 V c).after 3 t) = _
  rw [after1_3]
  obtain ⟨a00, a01, a10, a11, a20, a21, a30, a31⟩ := where1 t
  funext j
  refine (out1_3_at _ _ _ _).trans ?_
  have hj0 : (j 0).val < 4096 := (j 0).isLt
  have hj1 : (j 1).val < 128 := (j 1).isLt
  show Cert.Spec.mixB
        (fun s' h' => V c main_v57_0 (((cfg1.win 0).blk t).view.emb (ix2 s' (lane (pair1 (j 1)) h'))))
        (fun s' h' => V c main_v57_1 (((cfg1.win 1).blk t).view.emb (ix2 s' (lane (pair1 (j 1)) h'))))
        (fun s' h' => V c main_v57_2 (((cfg1.win 2).blk t).view.emb (ix2 s' (lane (pair1 (j 1)) h'))))
        (j 0) (place1 (j 1))
      = Cert.Spec.mixB
        (Cert.Spec.slab (fun r c' => V c main_v57_0 (ix2 r c')) (Cert.Spec.bOf ((((cfg1.win 3).blk t).view.emb j) 0)) (Cert.Spec.nOf ((((cfg1.win 3).blk t).view.emb j) 1)))
        (Cert.Spec.slab (fun r c' => V c main_v57_1 (ix2 r c')) (Cert.Spec.bOf ((((cfg1.win 3).blk t).view.emb j) 0)) (Cert.Spec.nOf ((((cfg1.win 3).blk t).view.emb j) 1)))
        (Cert.Spec.slab (fun r c' => V c main_v57_2 (ix2 r c')) (Cert.Spec.bOf ((((cfg1.win 3).blk t).view.emb j) 0)) (Cert.Spec.nOf ((((cfg1.win 3).blk t).view.emb j) 1)))
        (Cert.Spec.sOf ((((cfg1.win 3).blk t).view.emb j) 0)) (Cert.Spec.hOf ((((cfg1.win 3).blk t).view.emb j) 1))
  refine mixB_congr1 ?_ ?_ ?_ ?_ ?_
  · funext s' h'
    refine congrArg (V c main_v57_0) ?_
    funext a; apply Fin.ext
    have hs' := s'.isLt; have hh' := h'.isLt
    match a with
    | ⟨0, _⟩ => show win1_0.index t (0 : Fin 2) * 4096 + 1 * s'.val = 4096 * ((win1_3.index t (0 : Fin 2) * 4096 + 1 * (j 0).val) / 4096) + s'.val; omega
    | ⟨1, _⟩ => show win1_0.index t (1 : Fin 2) * 128 + 1 * (64 * ((j 1).val / 64) + h'.val) = 64 * ((win1_3.index t (1 : Fin 2) * 128 + 1 * (j 1).val) / 64) + h'.val; omega
  · funext s' h'
    refine congrArg (V c main_v57_1) ?_
    funext a; apply Fin.ext
    have hs' := s'.isLt; have hh' := h'.isLt
    match a with
    | ⟨0, _⟩ => show win1_1.index t (0 : Fin 2) * 4096 + 1 * s'.val = 4096 * ((win1_3.index t (0 : Fin 2) * 4096 + 1 * (j 0).val) / 4096) + s'.val; omega
    | ⟨1, _⟩ => show win1_1.index t (1 : Fin 2) * 128 + 1 * (64 * ((j 1).val / 64) + h'.val) = 64 * ((win1_3.index t (1 : Fin 2) * 128 + 1 * (j 1).val) / 64) + h'.val; omega
  · funext s' h'
    refine congrArg (V c main_v57_2) ?_
    funext a; apply Fin.ext
    have hs' := s'.isLt; have hh' := h'.isLt
    match a with
    | ⟨0, _⟩ => show win1_2.index t (0 : Fin 2) * 4096 + 1 * s'.val = 4096 * ((win1_3.index t (0 : Fin 2) * 4096 + 1 * (j 0).val) / 4096) + s'.val; omega
    | ⟨1, _⟩ => show win1_2.index t (1 : Fin 2) * 128 + 1 * (64 * ((j 1).val / 64) + h'.val) = 64 * ((win1_3.index t (1 : Fin 2) * 128 + 1 * (j 1).val) / 64) + h'.val; omega
  · apply Fin.ext
    show (j 0).val = (win1_3.index t (0 : Fin 2) * 4096 + 1 * (j 0).val) % 4096; omega
  · apply Fin.ext
    show (j 1).val % 64 = (win1_3.index t (1 : Fin 2) * 128 + 1 * (j 1).val) % 64; omega

/-- An entry is in point `t`'s block of the result iff each coordinate is in the block's range on its axis. -/
theorem mem_blk1_3 (t : Fin cfg1.N) (i : S16384x1024.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v58).slice (win1_3.rect t)).set ↔ _
  rw [View.set_slice_whole, Rect.mem_set_unit]
  exact Iff.rfl

/-- Every entry of the result is in some point's block: row `r`, column `cc` is in the block of point
    `8 (r / 4096) + cc / 128`. -/
theorem covered1_3 (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  have hN : cfg1.N = 32 := N_1
  obtain ⟨t, ht⟩ : ∃ t : Fin cfg1.N, t.val = 8 * ((i 0).val / 4096) + (i 1).val / 128 :=
    ⟨⟨8 * ((i 0).val / 4096) + (i 1).val / 128, by rw [hN]; omega⟩, rfl⟩
  obtain ⟨a00, a01, a10, a11, a20, a21, a30, a31⟩ := where1 t
  refine ⟨t, flush1_3 t, ?_⟩
  rw [mem_blk1_3]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- After the call, the result holds the mixed values of the three projection arrays. -/
theorem final1_3 (c : Dev nD) :
    (dat1 V c).arrAt 3 cfg1.N = mixed (V c main_v57_0) (V c main_v57_1) (V c main_v57_2) :=
  (dat1 V c).arrAt_eq_of_cover 3 _ (fun t _ => flushed1_3_eq V c t) covered1_3

end

end Cert.KernelIdeal.Bridge

end
-- ==== Proof.BlendNorm.lean ====
/-
  The blend's last factor. The kernel multiplies by a constant the certificate's table names as the reciprocal of the
  rational the reference's divisor denotes; so multiplying by it is dividing by that divisor, on every extended real.
-/
import proofs.«146488_j26654567039403_2_alg».proof.Proof.Gen.KernelIdeal
import proofs.«146488_j26654567039403_2_alg».proof.Proof.Spec
import Idealize.ShloMosaic.PureOps.IdealRules

noncomputable section

namespace Cert.KernelIdeal.Bridge

open Idealize.ShloMosaic

/-- The reference's divisor denotes the rational 11863283 / 2^24. -/
theorem cbal_val : Ideal.ofBits .f32 0x3F3504F3#32 = ((11863283 / 16777216 : ℝ) : EReal) := by
  simp [Ideal.ofBits, Ideal.ieee, -EReal.coe_mul]; norm_num

/-- The kernel's named factor denotes the reciprocal of that rational, by the certificate's table. -/
theorem named_val :
    Named.named (F := Ideal) Cert.KernelIdeal.κ "inv_balance_norm" (φ := .f32) 0x3FB504F3#32 = ((16777216 / 11863283 : ℝ) : EReal) :=
  IdealRules.named_const.ideal_named_scalar _ _ _ _ rfl

/-- Multiplying by the named factor is dividing by the reference's divisor. -/
theorem mul_named_eq_div (z : EReal) :
    z * Named.named (F := Ideal) Cert.KernelIdeal.κ "inv_balance_norm" (φ := .f32) 0x3FB504F3#32 = Ideal.div z Cert.Spec.cbal := by
  rw [named_val]
  unfold Cert.Spec.cbal
  rw [cbal_val, Ideal.div_coe (by norm_num : (11863283 / 16777216 : ℝ) ≠ 0)]
  norm_num

end Cert.KernelIdeal.Bridge

end
-- ==== Proof.Region2.lean ====
/-
  The third call: the mixed values' projection, blended with the tokens. The call walks the 16384 rows in 32 blocks
  of 512; at every block it multiplies the block of mixed values against all 1024 rows of the output weights, adds
  half of it to half of the tokens' block, and multiplies by the blend's named factor — which is dividing by the
  norm of the two halves. So its result is, entry by entry, that blend of a row's projection with the token.
-/
import proofs.«146488_j26654567039403_2_alg».proof.Proof.Gen.KernelIdeal.Frame
import proofs.«146488_j26654567039403_2_alg».proof.Proof.BlockProduct
import proofs.«146488_j26654567039403_2_alg».proof.Proof.BlendNorm
import proofs.«146488_j26654567039403_2_alg».proof.Proof.Spec
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The offsets `(0, 0)` of a rectangle that starts at the buffer's corner. -/
theorem corner2 : (![0, 0] : Fin 2 → Nat) = fun _ => 0 := funext fun a => by fin_cases a <;> rfl

/-- Half the token plus half the row's projection, over the blend's norm. -/
def blend (O : S16384x1024.Idx → EReal) (W : S1024x1024.Idx → EReal) (X : S16384x1024.Idx → EReal) : S16384x1024.Idx → EReal :=
  fun i => Ideal.div (X i * Cert.Spec.half + (∑ k : Fin 1024, O (ix2 (i 0) k) * W (ix2 (i 1) k)) * Cert.Spec.half) Cert.Spec.cbal

/-- The body's block, at an entry: the blend of the block's row's projection with the token's entry. -/
theorem pay_blend_apply (x0 : Vec Ideal S512x1024 .bf16) (x1 : Vec Ideal S1024x1024 .bf16) (x2 : Vec Ideal S512x1024 .f32) (y : S512x1024.Idx) :
    k2_pay1 x0 x1 x2 y
      = Ideal.div (x2 y * Cert.Spec.half + (∑ k : Fin 1024, x0 (ix2 (y 0) k) * x1 (ix2 (y 1) k)) * Cert.Spec.half) Cert.Spec.cbal := by
  obtain ⟨p, o, rfl⟩ : ∃ (p : Fin 512) (o : Fin 1024), y = ix2 p o := ⟨y 0, y 1, eq_ix2 y⟩
  unfold k2_pay1
  show (shapeCast S512x1024 x2 shapeCasts_S512x1024_S512x1024 (ix2 p o) * Cert.Spec.half
        + matmul (F := Ideal) dot_S512x1024_S1024x1024_S512x1024_1_1_0_0_n_n none (shapeCast S512x1024 x0 shapeCasts_S512x1024_S512x1024) (shapeCast S1024x1024 x1 shapeCasts_S1024x1024_S1024x1024) (constant (F := Ideal) S512x1024 .f32 0x00000000#32) (ix2 p o) * Cert.Spec.half)
        * Named.named (F := Ideal) Cert.KernelIdeal.κ "inv_balance_norm" (φ := .f32) 0x3FB504F3#32 = _
  rw [mul_named_eq_div, projT_apply, shapeCast_self, shapeCast_self, shapeCast_self]

/-! ## From blocks to the array -/

/-- The printed index maps, decided over the 32 points: the mixed values, the tokens and the result sit at block row
    `t`; the weight window is the whole matrix at every point. -/
theorem where2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the blend. -/
theorem flushed2_3_eq (c : Dev nD) (t : Fin cfg2.N) :
    (dat2 V c).flushed 3 t = ((cfg2.win 3).blk t).view.read (Elt Ideal) (blend (V c main_v58) (V c main_v55) (V c main_v56)) := by
  show (cfg2.win 3).cut (grid2.coords t) ((dat2 V c).after 3 t) = _
  rw [after2_3]
  unfold out2_3
  rw [View.canon_unit_zero corner2]
  simp only [View.ld_unit_zero (S := S512x1024) corner2, View.ld_unit_zero (S := S1024x1024) corner2]
  obtain ⟨a00, a01, a10, a11, a20, a21, a30, a31⟩ := where2 t
  funext j
  refine (pay_blend_apply _ _ _ _).trans ?_
  show Ideal.div (@HAdd.hAdd EReal EReal EReal _ (@HMul.hMul EReal EReal EReal _ (V c main_v56 (((cfg2.win 2).blk t).view.emb j)) Cert.Spec.half)
        (@HMul.hMul EReal EReal EReal _ (∑ k : Fin 1024, @HMul.hMul EReal EReal EReal _ (V c main_v58 (((cfg2.win 0).blk t).view.emb (ix2 (j 0) k))) (V c main_v55 (((cfg2.win 1).blk t).view.emb (ix2 (j 1) k)))) Cert.Spec.half)) Cert.Spec.cbal
      = Ideal.div (@HAdd.hAdd EReal EReal EReal _ (@HMul.hMul EReal EReal EReal _ (V c main_v56 (((cfg2.win 3).blk t).view.emb j)) Cert.Spec.half)
        (@HMul.hMul EReal EReal EReal _ (∑ k : Fin 1024, @HMul.hMul EReal EReal EReal _ (V c main_v58 (ix2 ((((cfg2.win 3).blk t).view.emb j) 0) k)) (V c main_v55 (ix2 ((((cfg2.win 3).blk t).view.emb j) 1) k))) Cert.Spec.half)) Cert.Spec.cbal
  have h2 : ((cfg2.win 2).blk t).view.emb j = ((cfg2.win 3).blk t).view.emb j := by
    funext a; apply Fin.ext
    match a with
    | ⟨0, _⟩ => show win2_2.index t (0 : Fin 2) * 512 + 1 * (j 0).val = win2_3.index t (0 : Fin 2) * 512 + 1 * (j 0).val; omega
    | ⟨1, _⟩ => show win2_2.index t (1 : Fin 2) * 1024 + 1 * (j 1).val = win2_3.index t (1 : Fin 2) * 1024 + 1 * (j 1).val; omega
  have hs : (∑ k : Fin 1024, @HMul.hMul EReal EReal EReal _ (V c main_v58 (((cfg2.win 0).blk t).view.emb (ix2 (j 0) k))) (V c main_v55 (((cfg2.win 1).blk t).view.emb (ix2 (j 1) k))))
      = ∑ k : Fin 1024, @HMul.hMul EReal EReal EReal _ (V c main_v58 (ix2 ((((cfg2.win 3).blk t).view.emb j) 0) k)) (V c main_v55 (ix2 ((((cfg2.win 3).blk t).view.emb j) 1) k)) := by
    refine Finset.sum_congr rfl fun k _ => ?_
    have h0 : ((cfg2.win 0).blk t).view.emb (ix2 (j 0) k) = ix2 ((((cfg2.win 3).blk t).view.emb j) 0) k := by
      funext a; apply Fin.ext
      match a with
      | ⟨0, _⟩ => show win2_0.index t (0 : Fin 2) * 512 + 1 * (j 0).val = win2_3.index t (0 : Fin 2) * 512 + 1 * (j 0).val; omega
      | ⟨1, _⟩ => show win2_0.index t (1 : Fin 2) * 1024 + 1 * k.val = k.val; omega
    have h1 : ((cfg2.win 1).blk t).view.emb (ix2 (j 1) k) = ix2 ((((cfg2.win 3).blk t).view.emb j) 1) k := by
      funext a; apply Fin.ext
      match a with
      | ⟨0, _⟩ => show win2_1.index t (0 : Fin 2) * 1024 + 1 * (j 1).val = win2_3.index t (1 : Fin 2) * 1024 + 1 * (j 1).val; omega
      | ⟨1, _⟩ => show win2_1.index t (1 : Fin 2) * 1024 + 1 * k.val = k.val; omega
    exact congrArg₂ (@HMul.hMul EReal EReal EReal _) (congrArg (V c main_v58) h0) (congrArg (V c main_v55) h1)
  rw [hs, h2]

/-- An entry is in point `t`'s block of the result iff each coordinate is in the block's range on its axis. -/
theorem mem_blk2_3 (t : Fin cfg2.N) (i : S16384x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v59).slice (win2_3.rect t)).set ↔ _
  rw [View.set_slice_whole, Rect.mem_set_unit]
  exact Iff.rfl

/-- Every entry of the result is in some point's block: row `r` is in the block of point `r / 512`. -/
theorem covered2_3 (i : S16384x1024.Idx) :
    ∃ t : Fin cfg2.N, (cfg2.win 3).flush t = true ∧ i ∈ ((cfg2.win 3).blk t).view.set := by
  have hi0 : (i 0).val < 16384 := (i 0).isLt
  have hi1 : (i 1).val < 1024 := (i 1).isLt
  have hN : cfg2.N = 32 := N_2
  obtain ⟨t, ht⟩ : ∃ t : Fin cfg2.N, t.val = (i 0).val / 512 := ⟨⟨(i 0).val / 512, by rw [hN]; omega⟩, rfl⟩
  obtain ⟨a00, a01, a10, a11, a20, a21, a30, a31⟩ := where2 t
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- After the call, the result holds the blend. -/
theorem final2_3 (c : Dev nD) : (dat2 V c).arrAt 3 cfg2.N = blend (V c main_v58) (V c main_v55) (V c main_v56) :=
  (dat2 V c).arrAt_eq_of_cover 3 _ (fun t _ => flushed2_3_eq V c t) covered2_3

end

end Cert.KernelIdeal.Bridge

end
-- ==== Proof.EntryContents.lean ====
/-
  The contents the first call finds: what the program's opening stretch of host operations leaves. The tokens are
  re-laid as one matrix of 16384 rows; each of the four weight matrices is made magnitude preserving (divided row by
  row by the guard plus the row's norm over 32, scaled by the gain over 32) and narrowed, which changes no value.
  The four weight computations are one and the same function of the gain and a matrix, and it is the function the
  reference applies to its own weights.
-/
import proofs.«146488_j26654567039403_2_alg».proof.Proof.Gen.KernelIdeal.Frame
import proofs.«146488_j26654567039403_2_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The token matrix the calls read is the argument re-laid. -/
theorem entry_tokens (c : Dev nD) :
    (V1 m ρ c main_v56 : S16384x1024.Idx → EReal)
      = shapeCast S16384x1024 (m ((c.tc : Thread nD τ).loc main_arg0)) shapeCasts_S4x4096x1024_S16384x1024 := by
  show StableHlo.after hostOps0 (W0 m ρ c) (Proc.devRef .tc main_v56) = _
  after_results_simp
  rfl

set_option maxHeartbeats 4000000 in
/-- The query weights the calls read. -/
theorem entry_wq (c : Dev nD) :
    (V1 m ρ c main_v52 : S1024x1024.Idx → EReal)
      = Cert.ReferenceIdeal.Read.val_main_v12 (F := Ideal) (m ((c.tc : Thread nD τ).loc main_arg1)) (m ((c.tc : Thread nD τ).loc main_arg2)) := by
  show StableHlo.after hostOps0 (W0 m ρ c) (Proc.devRef .tc main_v52) = _
  after_results_simp
  rfl

set_option maxHeartbeats 4000000 in
/-- The key weights the calls read. -/
theorem entry_wk (c : Dev nD) :
    (V1 m ρ c main_v53 : S1024x1024.Idx → EReal)
      = Cert.ReferenceIdeal.Read.val_main_v12 (F := Ideal) (m ((c.tc : Thread nD τ).loc main_arg1)) (m ((c.tc : Thread nD τ).loc main_arg3)) := by
  show StableHlo.after hostOps0 (W0 m ρ c) (Proc.devRef .tc main_v53) = _
  after_results_simp
  rfl

set_option maxHeartbeats 4000000 in
/-- The value weights the calls read. -/
theorem entry_wv (c : Dev nD) :
    (V1 m ρ c main_v54 : S1024x1024.Idx → EReal)
      = Cert.ReferenceIdeal.Read.val_main_v12 (F := Ideal) (m ((c.tc : Thread nD τ).loc main_arg1)) (m ((c.tc : Thread nD τ).loc main_arg4)) := by
  show StableHlo.after hostOps0 (W0 m ρ c) (Proc.devRef .tc main_v54) = _
  after_results_simp
  rfl

set_option maxHeartbeats 4000000 in
/-- The output weights the calls read. -/
theorem entry_wo (c : Dev nD) :
    (V1 m ρ c main_v55 : S1024x1024.Idx → EReal)
      = Cert.ReferenceIdeal.Read.val_main_v12 (F := Ideal) (m ((c.tc : Thread nD τ).loc main_arg1)) (m ((c.tc : Thread nD τ).loc main_arg5)) := by
  show StableHlo.after hostOps0 (W0 m ρ c) (Proc.devRef .tc main_v55) = _
  after_results_simp
  rfl

end Cert.KernelIdeal.Bridge

end
-- ==== Proof.RefWeights.lean ====
/-
  The reference's four normalised weight matrices, read entry by entry.

  Each weight matrix is made magnitude preserving in the same way: every entry is divided by the guard plus its row's
  norm over 32, and scaled by the gain over 32. The row's norm is the square root of a sum of squares that starts from
  the zero word, which is the extended real zero. The four pipelines are the same operations under different names, so
  the query weights are read in full and the other three are equal to them by unfolding.
-/
import proofs.«146488_j26654567039403_2_alg».proof.Proof.Gen.ReferenceIdeal.Read
import proofs.«146488_j26654567039403_2_alg».proof.Proof.Spec

noncomputable section

open scoped BigOperators

namespace Cert.RefValue

open Cert.ReferenceIdeal Cert.ReferenceIdeal.Gen Cert.ReferenceIdeal.Read Idealize.ShloMosaic Idealize.ShloMosaic.ValueIdx
  Idealize.SL.Sem

/-- An array of extended reals over a shape. -/
abbrev Arr (S : Shape) := (⟨S, .f32⟩ : BufTy).Contents (Elt Ideal)

/-- A square weight array as a curried matrix. -/
abbrev mat (w : Arr S1024x1024) : Cert.Spec.Mat 1024 1024 := fun o e => w (ix2 o e)

/-- The row sum of squares behind entry `(o, e)` runs over row `o`. -/
theorem idx_wq (o e k : Fin 1024) : idx_main_v1 (idx_main_v2 (idx_main_v8 (ix2 o e))) k = ix2 o k :=
  funext fun a => Fin.ext (by match a with | ⟨0, _⟩ => rfl | ⟨1, _⟩ => rfl)

/-- The normalised query weights at `(o, e)`. -/
theorem ref_wq (x1 : Arr S_) (x2 : Arr S1024x1024) (o e : Fin 1024) :
    val_main_v12 (F := Ideal) x1 x2 (ix2 o e) = Cert.Spec.wn (fun o e => x2 (ix2 o e)) (x1 ix0) o e := by
  simp only [val_main_v12_apply, val_main_v9_apply, val_main_v8_apply, val_main_v7_apply, val_main_v6_apply,
    val_main_cst_1_apply, val_main_v5_apply, val_main_v3_apply, val_main_v2_apply, val_main_v1_apply, val_main_cst_apply,
    val_main_v0_apply, val_main_v4_apply, val_main_cst_0_apply, val_main_v11_apply, val_main_v10_apply, val_main_cst_2_apply,
    idx_wq]
  simp only [Ideal.ofBits_def, Ideal.ofBits_zero_f32, zero_add]
  rfl

/-- The key, value and output weights go through the same operations as the query weights. -/
theorem v28_eq (x1 : Arr S_) (w : Arr S1024x1024) : val_main_v28 (F := Ideal) x1 w = val_main_v12 (F := Ideal) x1 w := rfl
theorem v44_eq (x1 : Arr S_) (w : Arr S1024x1024) : val_main_v44 (F := Ideal) x1 w = val_main_v12 (F := Ideal) x1 w := rfl
theorem v97_eq (x1 : Arr S_) (w : Arr S1024x1024) : val_main_v97 (F := Ideal) x1 w = val_main_v12 (F := Ideal) x1 w := rfl

/-- The normalised key weights at `(o, e)`. -/
theorem ref_wk (x1 : Arr S_) (x3 : Arr S1024x1024) (o e : Fin 1024) :
    val_main_v28 (F := Ideal) x1 x3 (ix2 o e) = Cert.Spec.wn (fun o e => x3 (ix2 o e)) (x1 ix0) o e := by
  rw [v28_eq]; exact ref_wq x1 x3 o e

/-- The normalised value weights at `(o, e)`. -/
theorem ref_wv (x1 : Arr S_) (x4 : Arr S1024x1024) (o e : Fin 1024) :
    val_main_v44 (F := Ideal) x1 x4 (ix2 o e) = Cert.Spec.wn (fun o e => x4 (ix2 o e)) (x1 ix0) o e := by
  rw [v44_eq]; exact ref_wq x1 x4 o e

/-- The normalised output weights at `(o, e)`. -/
theorem ref_wo (x1 : Arr S_) (x5 : Arr S1024x1024) (o e : Fin 1024) :
    val_main_v97 (F := Ideal) x1 x5 (ix2 o e) = Cert.Spec.wn (fun o e => x5 (ix2 o e)) (x1 ix0) o e := by
  rw [v97_eq]; exact ref_wq x1 x5 o e

end Cert.RefValue

end
-- ==== Proof.RefValue1.lean ====
/-
  The reference's projections, read entry by entry.

  The tokens are contracted against the rows of the three normalised weight matrices, the 1024 columns of each product
  are regrouped as 16 heads of 64, and the queries and keys are cosine-normalised along a head's 64 columns (the keys
  also divided by 64). This module states each of those arrays at explicit coordinates as the corresponding function of
  the specification. The three pipelines are the same operations under different names, so the queries are read in full
  and the keys and values are equal to them by unfolding.
-/
import proofs.«146488_j26654567039403_2_alg».proof.Proof.RefWeights

noncomputable section

open scoped BigOperators

namespace Cert.RefValue

open Cert.ReferenceIdeal Cert.ReferenceIdeal.Gen Cert.ReferenceIdeal.Read Idealize.ShloMosaic Idealize.ShloMosaic.ValueIdx
  Idealize.SL.Sem

/-- The token array as a flat matrix: row `r` is position `sOf r` of batch `bOf r`. -/
abbrev flat (x : Arr S4x4096x1024) : Cert.Spec.Mat 16384 1024 :=
  fun r c => x (ix3 (Cert.Spec.bOf r) (Cert.Spec.sOf r) c)

/-- A projection of the tokens through one normalised weight matrix, as a flat matrix. -/
abbrev proj (x0 : Arr S4x4096x1024) (x1 : Arr S_) (w : Arr S1024x1024) : Cert.Spec.Mat 16384 1024 :=
  Cert.Spec.lin (flat x0) (Cert.Spec.wn (mat w) (x1 ix0))

/-- Row `row b s` of the flat token matrix is position `s` of batch `b`. -/
theorem flat_row (x : Arr S4x4096x1024) (b : Fin 4) (s : Fin 4096) (c : Fin 1024) :
    flat x (Cert.Spec.row b s) c = x (ix3 b s c) := by
  show x (ix3 (Cert.Spec.bOf (Cert.Spec.row b s)) (Cert.Spec.sOf (Cert.Spec.row b s)) c) = _
  rw [Cert.Spec.bOf_row, Cert.Spec.sOf_row]

/-! ## The projections -/

theorem lidx13 (b : Fin 4) (s : Fin 4096) (o k : Fin 1024) : lidx_main_v13 (ix3 b s o) k = ix3 b s k :=
  funext fun a => Fin.ext (by match a with | ⟨0, _⟩ => rfl | ⟨1, _⟩ => rfl | ⟨2, _⟩ => rfl)

theorem ridx13 (b : Fin 4) (s : Fin 4096) (o k : Fin 1024) : ridx_main_v13 (ix3 b s o) k = ix2 o k :=
  funext fun a => Fin.ext (by match a with | ⟨0, _⟩ => rfl | ⟨1, _⟩ => rfl)

/-- The query projection at batch `b`, position `s`, column `o`: token row `row b s` against weight row `o`. -/
theorem lin13 (x0 : Arr S4x4096x1024) (x1 : Arr S_) (x2 : Arr S1024x1024) (b : Fin 4) (s : Fin 4096) (o : Fin 1024) :
    val_main_v13 (F := Ideal) x0 x1 x2 (ix3 b s o) = proj x0 x1 x2 (Cert.Spec.row b s) o := by
  rw [val_main_v13_apply]
  simp only [lidx13, ridx13, ref_wq]
  exact Finset.sum_congr rfl fun k _ => congrArg (· * _) (flat_row x0 b s k).symm

/-! ## Heads: the regrouping of the 1024 columns as 16 heads of 64 -/

/-- Entry `(b, n, s, h)` of the regrouped array is entry `(b, s, 64 n + h)` of the projection. -/
theorem idx15 (b : Fin 4) (n : Fin 16) (s : Fin 4096) (h : Fin 64) :
    idx_main_v14 (idx_main_v15 (ix4 b n s h)) = ix3 b s (Cert.Spec.col n h) :=
  funext fun a => Fin.ext (by
    have hb := b.isLt; have hn := n.isLt; have hs := s.isLt; have hh := h.isLt
    match a with
    | ⟨0, _⟩ => show (((b.val * 4096 + s.val) * 16 + n.val) * 64 + h.val) / 4194304 = b.val; omega
    | ⟨1, _⟩ => show (((b.val * 4096 + s.val) * 16 + n.val) * 64 + h.val) / 1024 % 4096 = s.val; omega
    | ⟨2, _⟩ => show (((b.val * 4096 + s.val) * 16 + n.val) * 64 + h.val) % 1024 = 64 * n.val + h.val; omega)

/-- The queries of batch `b` and head `n`. -/
theorem slab15 (x0 : Arr S4x4096x1024) (x1 : Arr S_) (x2 : Arr S1024x1024) (b : Fin 4) (n : Fin 16) (s : Fin 4096) (h : Fin 64) :
    val_main_v15 (F := Ideal) x0 x1 x2 (ix4 b n s h) = Cert.Spec.slab (proj x0 x1 x2) b n s h := by
  rw [val_main_v15_apply, val_main_v14_apply, idx15, lin13]
  rfl

/-- The keys and the values are projected and regrouped by the same operations as the queries. -/
theorem v31_eq (x0 : Arr S4x4096x1024) (x1 : Arr S_) (w : Arr S1024x1024) :
    val_main_v31 (F := Ideal) x0 x1 w = val_main_v15 (F := Ideal) x0 x1 w := rfl
theorem v47_eq (x0 : Arr S4x4096x1024) (x1 : Arr S_) (w : Arr S1024x1024) :
    val_main_v47 (F := Ideal) x0 x1 w = val_main_v15 (F := Ideal) x0 x1 w := rfl

/-- The values of batch `b` and head `n`. -/
theorem slab47 (x0 : Arr S4x4096x1024) (x1 : Arr S_) (x4 : Arr S1024x1024) (b : Fin 4) (n : Fin 16) (s : Fin 4096) (h : Fin 64) :
    val_main_v47 (F := Ideal) x0 x1 x4 (ix4 b n s h) = Cert.Spec.slab (proj x0 x1 x4) b n s h := by
  rw [v47_eq]; exact slab15 x0 x1 x4 b n s h

/-! ## Cosine normalisation along a head's 64 columns -/

/-- The sum of squares behind entry `(b, n, s, h)` runs over the 64 columns of position `s`. -/
theorem idx57 (b : Fin 4) (n : Fin 16) (s : Fin 4096) (h k : Fin 64) :
    idx_main_v49 (idx_main_v50 (idx_main_v56 (ix4 b n s h))) k = ix4 b n s k :=
  funext fun a => Fin.ext (by match a with | ⟨0, _⟩ => rfl | ⟨1, _⟩ => rfl | ⟨2, _⟩ => rfl | ⟨3, _⟩ => rfl)

/-- The normalised queries of batch `b` and head `n`. -/
theorem hn57 (x0 : Arr S4x4096x1024) (x1 : Arr S_) (x2 : Arr S1024x1024) (b : Fin 4) (n : Fin 16) (s : Fin 4096) (h : Fin 64) :
    val_main_v57 (F := Ideal) x0 x1 x2 (ix4 b n s h) = Cert.Spec.hn (Cert.Spec.slab (proj x0 x1 x2) b n) s h := by
  simp only [val_main_v57_apply, val_main_v56_apply, val_main_v55_apply, val_main_v54_apply, val_main_cst_13_apply,
    val_main_v53_apply, val_main_v51_apply, val_main_v50_apply, val_main_v49_apply, val_main_cst_11_apply,
    val_main_v48_apply, val_main_v52_apply, val_main_cst_12_apply, idx57, slab15]
  simp only [Ideal.ofBits_def, Ideal.ofBits_zero_f32, zero_add]
  rfl

/-- The keys are normalised by the same operations as the queries. -/
theorem v67_eq (x0 : Arr S4x4096x1024) (x1 : Arr S_) (w : Arr S1024x1024) :
    val_main_v67 (F := Ideal) x0 x1 w = val_main_v57 (F := Ideal) x0 x1 w := rfl

/-- The normalised keys of batch `b` and head `n`, over 64. -/
theorem hn69 (x0 : Arr S4x4096x1024) (x1 : Arr S_) (x3 : Arr S1024x1024) (b : Fin 4) (n : Fin 16) (s : Fin 4096) (h : Fin 64) :
    val_main_v69 (F := Ideal) x0 x1 x3 (ix4 b n s h)
      = Ideal.div (Cert.Spec.hn (Cert.Spec.slab (proj x0 x1 x3) b n) s h) Cert.Spec.c64 := by
  rw [val_main_v69_apply, val_main_v68_apply, val_main_cst_17_apply, v67_eq, hn57]
  rfl

end Cert.RefValue

end
-- ==== Proof.RefValue2.lean ====
/-
  The reference's attention within one batch and one head, read entry by entry.

  The score of query column `h` against key column `j` contracts the normalised queries and keys over the 4096
  positions. Each score row goes through a softmax: its maximum (a fold of `max` from minus infinity, taken once more
  against minus infinity), the exponentials of the differences, their sum from the zero word, and the quotient. The
  values are then mixed by the softmax's rows. This module states each of those arrays at explicit coordinates as the
  corresponding function of the specification.
-/
import proofs.«146488_j26654567039403_2_alg».proof.Proof.RefValue1

noncomputable section

open scoped BigOperators

namespace Cert.RefValue

open Cert.ReferenceIdeal Cert.ReferenceIdeal.Gen Cert.ReferenceIdeal.Read Idealize.ShloMosaic Idealize.ShloMosaic.ValueIdx
  Idealize.SL.Sem

/-! ## The scores -/

theorem lidx70 (b : Fin 4) (n : Fin 16) (h j : Fin 64) (k : Fin 4096) : lidx_main_v70 (ix4 b n h j) k = ix4 b n k h :=
  funext fun a => Fin.ext (by match a with | ⟨0, _⟩ => rfl | ⟨1, _⟩ => rfl | ⟨2, _⟩ => rfl | ⟨3, _⟩ => rfl)

theorem ridx70 (b : Fin 4) (n : Fin 16) (h j : Fin 64) (k : Fin 4096) : ridx_main_v70 (ix4 b n h j) k = ix4 b n k j :=
  funext fun a => Fin.ext (by match a with | ⟨0, _⟩ => rfl | ⟨1, _⟩ => rfl | ⟨2, _⟩ => rfl | ⟨3, _⟩ => rfl)

/-- The score of query column `h` against key column `j` in batch `b` and head `n`. -/
theorem score70 (x0 : Arr S4x4096x1024) (x1 : Arr S_) (x2 x3 : Arr S1024x1024) (b : Fin 4) (n : Fin 16) (h j : Fin 64) :
    val_main_v70 (F := Ideal) x0 x1 x2 x3 (ix4 b n h j)
      = Cert.Spec.score (Cert.Spec.slab (proj x0 x1 x2) b n) (Cert.Spec.slab (proj x0 x1 x3) b n) h j := by
  rw [val_main_v70_apply]
  simp only [lidx70, ridx70, hn57, hn69]
  rfl

/-! ## The softmax of a score row -/

/-- Row `(b, n, h)` of the scores with column `k` put back is entry `(b, n, h, k)`. -/
theorem lift71 (hR : S4x16x64x64.Reduces [3] S4x16x64) (b : Fin 4) (n : Fin 16) (h : Fin 64)
    (k : Fin (S4x16x64x64.size 3)) : hR.lift (ix3 b n h) k = ix4 b n h (⟨k.val, k.isLt⟩ : Fin 64) := by
  funext c; apply Fin.ext
  fin_cases c <;> rfl

/-- The maximum over a score row: the fold of `max` from minus infinity over the row's 64 columns. -/
theorem max71 (x0 : Arr S4x4096x1024) (x1 : Arr S_) (x2 x3 : Arr S1024x1024) (b : Fin 4) (n : Fin 16) (h : Fin 64) :
    val_main_v71 (F := Ideal) x0 x1 x2 x3 (ix3 b n h)
      = (Finset.univ : Finset (Fin 64)).fold max Cert.Spec.ninf
          (fun j => val_main_v70 (F := Ideal) x0 x1 x2 x3 (ix4 b n h j)) := by
  unfold val_main_v71
  generalize val_main_v70 (F := Ideal) x0 x1 x2 x3 = y
  have hR : S4x16x64x64.Reduces [3] S4x16x64 := by decide
  refine (Host.reduce_eq_fold_single (α := Ideal .f32) FloatOps.maximumf y _ reducesTo_S4x16x64x64_S4x16x64_d3 hR h_S_
    (ix3 b n h)).trans ?_
  have hf : (y ∘ hR.lift (ix3 b n h)) = fun k : Fin 64 => y (ix4 b n h k) :=
    funext fun k => congrArg y (lift71 hR b n h k)
  exact congrArg (fun f => Finset.fold max Cert.Spec.ninf f (Finset.univ : Finset (Fin 64))) hf

/-- The maximum of score row `h` as the softmax spells it. -/
theorem top73 (x0 : Arr S4x4096x1024) (x1 : Arr S_) (x2 x3 : Arr S1024x1024) (b : Fin 4) (n : Fin 16) (h : Fin 64) :
    val_main_v73 (F := Ideal) x0 x1 x2 x3 (ix3 b n h)
      = Cert.Spec.top Cert.Spec.ninf
          (Cert.Spec.score (Cert.Spec.slab (proj x0 x1 x2) b n) (Cert.Spec.slab (proj x0 x1 x3) b n) h) := by
  rw [val_main_v73_apply, val_main_v72_apply, val_main_cst_19_apply, max71]
  simp only [score70]
  rfl

theorem idx75 (b : Fin 4) (n : Fin 16) (h j : Fin 64) : idx_main_v74 (idx_main_v75 (ix4 b n h j)) = ix3 b n h :=
  funext fun a => Fin.ext (by match a with | ⟨0, _⟩ => rfl | ⟨1, _⟩ => rfl | ⟨2, _⟩ => rfl)

/-- The exponential of a score less its row's maximum. -/
theorem exp77 (x0 : Arr S4x4096x1024) (x1 : Arr S_) (x2 x3 : Arr S1024x1024) (b : Fin 4) (n : Fin 16) (h j : Fin 64) :
    val_main_v77 (F := Ideal) x0 x1 x2 x3 (ix4 b n h j)
      = Ideal.exp (Cert.Spec.score (Cert.Spec.slab (proj x0 x1 x2) b n) (Cert.Spec.slab (proj x0 x1 x3) b n) h j
          - Cert.Spec.top Cert.Spec.ninf
              (Cert.Spec.score (Cert.Spec.slab (proj x0 x1 x2) b n) (Cert.Spec.slab (proj x0 x1 x3) b n) h)) := by
  rw [val_main_v77_apply, val_main_v76_apply, val_main_v75_apply, val_main_v74_apply, idx75, top73, score70]
  rfl

theorem idx78 (b : Fin 4) (n : Fin 16) (h k : Fin 64) : idx_main_v78 (ix3 b n h) k = ix4 b n h k :=
  funext fun a => Fin.ext (by match a with | ⟨0, _⟩ => rfl | ⟨1, _⟩ => rfl | ⟨2, _⟩ => rfl | ⟨3, _⟩ => rfl)

theorem idx80 (b : Fin 4) (n : Fin 16) (h j : Fin 64) : idx_main_v79 (idx_main_v80 (ix4 b n h j)) = ix3 b n h :=
  funext fun a => Fin.ext (by match a with | ⟨0, _⟩ => rfl | ⟨1, _⟩ => rfl | ⟨2, _⟩ => rfl)

/-- The softmax of score row `h`, at column `j`. -/
theorem attn81 (x0 : Arr S4x4096x1024) (x1 : Arr S_) (x2 x3 : Arr S1024x1024) (b : Fin 4) (n : Fin 16) (h j : Fin 64) :
    val_main_v81 (F := Ideal) x0 x1 x2 x3 (ix4 b n h j)
      = Cert.Spec.attn (Cert.Spec.slab (proj x0 x1 x2) b n) (Cert.Spec.slab (proj x0 x1 x3) b n) h j := by
  rw [val_main_v81_apply, val_main_v80_apply, val_main_v79_apply, idx80, val_main_v78_apply, val_main_cst_20_apply]
  simp only [idx78, exp77, Ideal.ofBits_def, Ideal.ofBits_zero_f32, zero_add]
  rfl

/-! ## The values mixed by the softmax -/

theorem lidx82 (b : Fin 4) (n : Fin 16) (s : Fin 4096) (h k : Fin 64) : lidx_main_v82 (ix4 b n s h) k = ix4 b n s k :=
  funext fun a => Fin.ext (by match a with | ⟨0, _⟩ => rfl | ⟨1, _⟩ => rfl | ⟨2, _⟩ => rfl | ⟨3, _⟩ => rfl)

theorem ridx82 (b : Fin 4) (n : Fin 16) (s : Fin 4096) (h k : Fin 64) : ridx_main_v82 (ix4 b n s h) k = ix4 b n h k :=
  funext fun a => Fin.ext (by match a with | ⟨0, _⟩ => rfl | ⟨1, _⟩ => rfl | ⟨2, _⟩ => rfl | ⟨3, _⟩ => rfl)

/-- The values of position `s` mixed by row `h` of the softmax, in batch `b` and head `n`. -/
theorem mix82 (x0 : Arr S4x4096x1024) (x1 : Arr S_) (x2 x3 x4 : Arr S1024x1024) (b : Fin 4) (n : Fin 16) (s : Fin 4096)
    (h : Fin 64) :
    val_main_v82 (F := Ideal) x0 x1 x2 x3 x4 (ix4 b n s h)
      = Cert.Spec.mixB (Cert.Spec.slab (proj x0 x1 x2) b n) (Cert.Spec.slab (proj x0 x1 x3) b n)
          (Cert.Spec.slab (proj x0 x1 x4) b n) s h := by
  rw [val_main_v82_apply]
  simp only [lidx82, ridx82, slab47, attn81]
  rfl

end Cert.RefValue

end
-- ==== Proof.RefValue.lean ====
/-
  The reference computes the specification.

  The mixed values of every batch and head are put back in the flat layout (column `c` belongs to head `c / 64`, at
  place `c % 64` within it), projected through the normalised output weights, and blended half and half with the
  tokens, the blend divided by the norm of the two weights. Together with the earlier modules this states the
  reference's result, entry by entry, as the specification's function of the arguments.
-/
import proofs.«146488_j26654567039403_2_alg».proof.Proof.RefValue2

noncomputable section

open scoped BigOperators

namespace Cert.RefValue

open Cert.ReferenceIdeal Cert.ReferenceIdeal.Gen Cert.ReferenceIdeal.Read Idealize.ShloMosaic Idealize.ShloMosaic.ValueIdx
  Idealize.SL.Sem

/-! ## Back to the flat layout -/

/-- Entry `(b, s, c)` of the flat mixed values is entry `(b, c / 64, s, c % 64)` of the per-head ones. -/
theorem idx84 (b : Fin 4) (s : Fin 4096) (c : Fin 1024) :
    idx_main_v83 (idx_main_v84 (ix3 b s c)) = ix4 b (Cert.Spec.nOf c) s (Cert.Spec.hOf c) :=
  funext fun a => Fin.ext (by
    have hb := b.isLt; have hs := s.isLt; have hc := c.isLt
    match a with
    | ⟨0, _⟩ => show ((b.val * 4096 + s.val) * 1024 + c.val) / 4194304 = b.val; omega
    | ⟨1, _⟩ => show ((b.val * 4096 + s.val) * 1024 + c.val) / 64 % 16 = c.val / 64; omega
    | ⟨2, _⟩ => show ((b.val * 4096 + s.val) * 1024 + c.val) / 1024 % 4096 = s.val; omega
    | ⟨3, _⟩ => show ((b.val * 4096 + s.val) * 1024 + c.val) % 64 = c.val % 64; omega)

/-- The mixed values in the flat layout. -/
theorem mix84 (x0 : Arr S4x4096x1024) (x1 : Arr S_) (x2 x3 x4 : Arr S1024x1024) (b : Fin 4) (s : Fin 4096) (c : Fin 1024) :
    val_main_v84 (F := Ideal) x0 x1 x2 x3 x4 (ix3 b s c)
      = Cert.Spec.mix (proj x0 x1 x2) (proj x0 x1 x3) (proj x0 x1 x4) (Cert.Spec.row b s) c := by
  rw [val_main_v84_apply, val_main_v83_apply, idx84, mix82]
  unfold Cert.Spec.mix
  rw [Cert.Spec.bOf_row, Cert.Spec.sOf_row]

/-! ## The last projection and the blend -/

theorem lidx98 (b : Fin 4) (s : Fin 4096) (c k : Fin 1024) : lidx_main_v98 (ix3 b s c) k = ix3 b s k :=
  funext fun a => Fin.ext (by match a with | ⟨0, _⟩ => rfl | ⟨1, _⟩ => rfl | ⟨2, _⟩ => rfl)

theorem ridx98 (b : Fin 4) (s : Fin 4096) (c k : Fin 1024) : ridx_main_v98 (ix3 b s c) k = ix2 c k :=
  funext fun a => Fin.ext (by match a with | ⟨0, _⟩ => rfl | ⟨1, _⟩ => rfl)

/-- The mixed values against row `c` of the normalised output weights. -/
theorem lin98 (x0 : Arr S4x4096x1024) (x1 : Arr S_) (x2 x3 x4 x5 : Arr S1024x1024) (b : Fin 4) (s : Fin 4096) (c : Fin 1024) :
    val_main_v98 (F := Ideal) x0 x1 x2 x3 x4 x5 (ix3 b s c)
      = Cert.Spec.lin (Cert.Spec.mix (proj x0 x1 x2) (proj x0 x1 x3) (proj x0 x1 x4)) (Cert.Spec.wn (mat x5) (x1 ix0))
          (Cert.Spec.row b s) c := by
  rw [val_main_v98_apply]
  simp only [lidx98, ridx98, mix84, ref_wo]
  rfl

/-- The reference's result at batch `b`, position `s`, column `c`. -/
theorem out105 (x0 : Arr S4x4096x1024) (x1 : Arr S_) (x2 x3 x4 x5 : Arr S1024x1024) (b : Fin 4) (s : Fin 4096) (c : Fin 1024) :
    val_main_v105 (F := Ideal) x0 x1 x2 x3 x4 x5 (ix3 b s c)
      = Cert.Spec.out (flat x0) (x1 ix0) (mat x2) (mat x3) (mat x4) (mat x5) (Cert.Spec.row b s) c := by
  rw [val_main_v105_apply, val_main_v104_apply, val_main_cst_27_apply, val_main_v103_apply, val_main_v100_apply,
    val_main_v99_apply, val_main_cst_25_apply, val_main_v102_apply, val_main_v101_apply, val_main_cst_26_apply, lin98]
  unfold Cert.Spec.out
  rw [flat_row]
  rfl

/-- The reference's result is the specification's function of the arguments, entry by entry. -/
theorem ref_eq (x0 : Arr S4x4096x1024) (x1 : Arr S_) (x2 x3 x4 x5 : Arr S1024x1024) (i : S4x4096x1024.Idx) :
    val_main_v105 (F := Ideal) x0 x1 x2 x3 x4 x5 i
      = Cert.Spec.out (fun r c => x0 (ix3 (Cert.Spec.bOf r) (Cert.Spec.sOf r) c)) (x1 ix0)
          (fun o e => x2 (ix2 o e)) (fun o e => x3 (ix2 o e)) (fun o e => x4 (ix2 o e)) (fun o e => x5 (ix2 o e))
          (Cert.Spec.row (i 0) (i 1)) (i 2) :=
  (congrArg (val_main_v105 (F := Ideal) x0 x1 x2 x3 x4 x5) (eq_ix3 i)).trans
    (out105 x0 x1 x2 x3 x4 x5 (i 0) (i 1) (i 2))

end Cert.RefValue

end
-- ==== Proof.KernelValue.lean ====
/-
  The idealized kernel's result as the specification's function of its arguments. The buffer contents are followed
  through the program's five segments: the opening host stretch leaves the re-laid tokens and the four magnitude-
  preserving weight matrices; the first call leaves the three projections; the second the mixed values; the third
  the blend; the closing host operation re-lays the blend as batches of positions.
-/
import proofs.«146488_j26654567039403_2_alg».proof.Proof.Gen.KernelIdeal.Frame
import proofs.«146488_j26654567039403_2_alg».proof.Proof.Region0
import proofs.«146488_j26654567039403_2_alg».proof.Proof.Region1
import proofs.«146488_j26654567039403_2_alg».proof.Proof.Region2
import proofs.«146488_j26654567039403_2_alg».proof.Proof.EntryContents
import proofs.«146488_j26654567039403_2_alg».proof.Proof.RefValue
import proofs.«146488_j26654567039403_2_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result is the third call's array re-laid. -/
theorem exit_result (c : Dev nD) :
    (W5 m ρ c (Proc.devRef .tc main_v60) : S4x4096x1024.Idx → EReal)
      = shapeCast S4x4096x1024 (W4 m ρ c (Proc.devRef .tc main_v59)) shapeCasts_S16384x1024_S4x4096x1024 := by
  show StableHlo.after hostOps3 (W4 m ρ c) (Proc.devRef .tc main_v60) = _
  after_results
  rfl

/-- The third call leaves the blend of what it finds. -/
theorem exit2 (c : Dev nD) :
    (W4 m ρ c (Proc.devRef .tc main_v59) : S16384x1024.Idx → EReal)
      = blend (V3 m ρ c main_v58) (V3 m ρ c main_v55) (V3 m ρ c main_v56) :=
  (W4_arr m ρ c 3).trans (final2_3 (V3 m ρ) c)

/-- The output weights reach the third call as the first call found them. -/
theorem carried_wo (c : Dev nD) : V3 m ρ c main_v55 = V1 m ρ c main_v55 :=
  (W3_of_ne m ρ c main_v55 (by decide)).trans (W2_of_ne m ρ c main_v55 (by decide))

/-- The tokens reach the third call as the first call found them: the first call only reads them, the second does
    not touch them. -/
theorem carried_tokens (c : Dev nD) : V3 m ρ c main_v56 = V1 m ρ c main_v56 :=
  (W3_of_ne m ρ c main_v56 (by decide)).trans
    ((W2_arr m ρ c 0).trans (((dat0 (V1 m ρ) c).arrAt_in 0 rfl cfg0.N).trans (A_eq0 (V1 m ρ) c 0)))

/-- The first call leaves the three projections. -/
theorem exit0_q (c : Dev nD) :
    (V2 m ρ c main_v57_0 : S16384x1024.Idx → EReal) = proj (V1 m ρ c main_v56) (V1 m ρ c main_v52) :=
  (W2_arr m ρ c 4).trans (final0_4 (V1 m ρ) c)
theorem exit0_k (c : Dev nD) :
    (V2 m ρ c main_v57_1 : S16384x1024.Idx → EReal) = proj (V1 m ρ c main_v56) (V1 m ρ c main_v53) :=
  (W2_arr m ρ c 5).trans (final0_5 (V1 m ρ) c)
theorem exit0_v (c : Dev nD) :
    (V2 m ρ c main_v57_2 : S16384x1024.Idx → EReal) = proj (V1 m ρ c main_v56) (V1 m ρ c main_v54) :=
  (W2_arr m ρ c 6).trans (final0_6 (V1 m ρ) c)

/-- A two-axis array as a matrix. -/
abbrev toMat {a b : Nat} (A : (⟨2, ![a, b]⟩ : Shape).Idx → EReal) : Cert.Spec.Mat a b := fun r c => A (ix2 r c)

/-- The tokens as the flat matrix the specification takes: row `r` is position `r % 4096` of batch `r / 4096`. -/
abbrev tokens (c : Dev nD) : Cert.Spec.Mat 16384 1024 := fun r cc =>
  (m ((c.tc : Thread nD τ).loc main_arg0) : S4x4096x1024.Idx → EReal) (ix3 (Cert.Spec.bOf r) (Cert.Spec.sOf r) cc)
/-- The gain. -/
abbrev gain (c : Dev nD) : EReal := (m ((c.tc : Thread nD τ).loc main_arg1) : S_.Idx → EReal) ix0

/-- What the program computes, as the specification's function of the argument arrays. -/
def G (c : Dev nD) : S4x4096x1024.Idx → EReal := fun i =>
  Cert.Spec.out (tokens m c) (gain m c)
    (toMat (m ((c.tc : Thread nD τ).loc main_arg2))) (toMat (m ((c.tc : Thread nD τ).loc main_arg3)))
    (toMat (m ((c.tc : Thread nD τ).loc main_arg4))) (toMat (m ((c.tc : Thread nD τ).loc main_arg5)))
    (Cert.Spec.row (i 0) (i 1)) (i 2)

/-- The token matrix the calls read, as the specification's. -/
theorem tokens_eq (c : Dev nD) : toMat (V1 m ρ c main_v56) = tokens m c := by
  funext r cc
  refine (congrFun (entry_tokens m ρ c) (ix2 r cc)).trans ?_
  exact shapeCast_apply _ _ (ix2 r cc) (ix3 (Cert.Spec.bOf r) (Cert.Spec.sOf r) cc) (by
    rw [Shape.rowMajor_val_three, Shape.rowMajor_val_two]
    show (r.val / 4096 * 4096 + r.val % 4096) * 1024 + cc.val = r.val * 1024 + cc.val
    omega)

/-- The four weight matrices the calls read, as the specification's. -/
theorem wq_eq (c : Dev nD) : toMat (V1 m ρ c main_v52) = Cert.Spec.wn (toMat (m ((c.tc : Thread nD τ).loc main_arg2))) (gain m c) := by
  funext o e
  exact (congrFun (entry_wq m ρ c) (ix2 o e)).trans (Cert.RefValue.ref_wq _ _ o e)
theorem wk_eq (c : Dev nD) : toMat (V1 m ρ c main_v53) = Cert.Spec.wn (toMat (m ((c.tc : Thread nD τ).loc main_arg3))) (gain m c) := by
  funext o e
  exact (congrFun (entry_wk m ρ c) (ix2 o e)).trans (Cert.RefValue.ref_wq _ _ o e)
theorem wv_eq (c : Dev nD) : toMat (V1 m ρ c main_v54) = Cert.Spec.wn (toMat (m ((c.tc : Thread nD τ).loc main_arg4))) (gain m c) := by
  funext o e
  exact (congrFun (entry_wv m ρ c) (ix2 o e)).trans (Cert.RefValue.ref_wq _ _ o e)
theorem wo_eq (c : Dev nD) : toMat (V1 m ρ c main_v55) = Cert.Spec.wn (toMat (m ((c.tc : Thread nD τ).loc main_arg5))) (gain m c) := by
  funext o e
  exact (congrFun (entry_wo m ρ c) (ix2 o e)).trans (Cert.RefValue.ref_wq _ _ o e)

/-- The three projections the second call reads, as the specification's. -/
theorem q_eq (c : Dev nD) : toMat (V2 m ρ c main_v57_0)
    = Cert.Spec.lin (tokens m c) (Cert.Spec.wn (toMat (m ((c.tc : Thread nD τ).loc main_arg2))) (gain m c)) := by
  rw [exit0_q]
  show Cert.Spec.lin (toMat (V1 m ρ c main_v56)) (toMat (V1 m ρ c main_v52)) = _
  rw [tokens_eq, wq_eq]
theorem k_eq (c : Dev nD) : toMat (V2 m ρ c main_v57_1)
    = Cert.Spec.lin (tokens m c) (Cert.Spec.wn (toMat (m ((c.tc : Thread nD τ).loc main_arg3))) (gain m c)) := by
  rw [exit0_k]
  show Cert.Spec.lin (toMat (V1 m ρ c main_v56)) (toMat (V1 m ρ c main_v53)) = _
  rw [tokens_eq, wk_eq]
theorem v_eq (c : Dev nD) : toMat (V2 m ρ c main_v57_2)
    = Cert.Spec.lin (tokens m c) (Cert.Spec.wn (toMat (m ((c.tc : Thread nD τ).loc main_arg4))) (gain m c)) := by
  rw [exit0_v]
  show Cert.Spec.lin (toMat (V1 m ρ c main_v56)) (toMat (V1 m ρ c main_v54)) = _
  rw [tokens_eq, wv_eq]

/-- The mixed values the third call reads, as the specification's. -/
theorem mixed_eq (c : Dev nD) : toMat (V3 m ρ c main_v58)
    = Cert.Spec.mix
        (Cert.Spec.lin (tokens m c) (Cert.Spec.wn (toMat (m ((c.tc : Thread nD τ).loc main_arg2))) (gain m c)))
        (Cert.Spec.lin (tokens m c) (Cert.Spec.wn (toMat (m ((c.tc : Thread nD τ).loc main_arg3))) (gain m c)))
        (Cert.Spec.lin (tokens m c) (Cert.Spec.wn (toMat (m ((c.tc : Thread nD τ).loc main_arg4))) (gain m c))) := by
  have h : (V3 m ρ c main_v58 : S16384x1024.Idx → EReal)
      = mixed (V2 m ρ c main_v57_0) (V2 m ρ c main_v57_1) (V2 m ρ c main_v57_2) :=
    (W3_arr m ρ c 3).trans (final1_3 (V2 m ρ) c)
  rw [h]
  show Cert.Spec.mix (toMat (V2 m ρ c main_v57_0)) (toMat (V2 m ρ c main_v57_1)) (toMat (V2 m ρ c main_v57_2)) = _
  rw [q_eq, k_eq, v_eq]

/-- THE RESULT: the result buffer's contents at the end of the run are the specification's function of the
    arguments. -/
theorem result_eq (c : Dev nD) : (W5 m ρ c (Proc.devRef .tc main_v60) : S4x4096x1024.Idx → EReal) = G m c := by
  funext i
  obtain ⟨b, s, cc, rfl⟩ : ∃ (b : Fin 4) (s : Fin 4096) (cc : Fin 1024), i = ix3 b s cc := ⟨i 0, i 1, i 2, eq_ix3 i⟩
  refine (congrFun (exit_result m ρ c) (ix3 b s cc)).trans ?_
  refine (shapeCast_apply _ _ (ix3 b s cc) (ix2 (Cert.Spec.row b s) cc) (by
    rw [Shape.rowMajor_val_three, Shape.rowMajor_val_two]
    show (4096 * b.val + s.val) * 1024 + cc.val = (b.val * 4096 + s.val) * 1024 + cc.val
    omega)).trans ?_
  refine (congrFun (exit2 m ρ c) (ix2 (Cert.Spec.row b s) cc)).trans ?_
  show Ideal.div (toMat (V3 m ρ c main_v56) (Cert.Spec.row b s) cc * Cert.Spec.half
      + Cert.Spec.lin (toMat (V3 m ρ c main_v58)) (toMat (V3 m ρ c main_v55)) (Cert.Spec.row b s) cc * Cert.Spec.half) Cert.Spec.cbal = _
  rw [carried_tokens, carried_wo, tokens_eq, wo_eq, mixed_eq]
  rfl

end Cert.KernelIdeal.Bridge

end
-- ==== Proof.lean ====
/-
  The certificate of a magnitude-preserving attention layer against its reference, on the extended reals.

  Tokens (4 batches of 4096 positions, 1024 columns = 16 heads of 64) are projected to queries, keys and values
  through weight matrices whose rows are divided by a guard plus their norm over 32 and scaled by a gain over 32;
  within a batch and a head the queries and keys are cosine-normalised along the head's 64 columns, the keys scaled
  down by 64, and contracted over the POSITIONS to a 64 x 64 score whose rows go through a softmax; the values are
  mixed by it, projected once more, and blended half and half with the tokens, the blend divided by the norm
  sqrt(1/2) of the two halves.

  The kernel does this in three calls over a flat 16384 x 1024 layout — projections by blocks of 512 rows, the
  attention core by column slabs of two heads, the last projection with the blend by blocks of 512 rows — and the
  reference as one host program over a [batch, head, position, column] layout. At the ideal instance every sum,
  product, quotient, square root, exponential and maximum is the same function on both sides, in the same operand
  order; the layouts differ, and two spellings differ by a law that holds on every extended real: the keys' product
  with 1/64 is their quotient by 64, and the blend's product with the NAMED reciprocal of the reference's divisor is
  the quotient by that divisor. So no finiteness is used: the precondition is never opened.

  The modules: Spec (the function, on plain matrices), RefWeights / RefValue1 / RefValue2 / RefValue (the reference's
  stages are the specification's), BlockProduct, AttnBlock1 / AttnBlock2 / AttnBlock, BlendNorm (the kernel bodies'
  blocks at an entry), Region0 / Region1 / Region2 (from blocks to whole arrays), EntryContents (the opening host
  stretch), KernelRun (the run with the result named), KernelValue (the result is the specification's function),
  Claims (the three frames and the ledger's one entry).
-/
import proofs.«146488_j26654567039403_2_alg».proof.Defs
import proofs.«146488_j26654567039403_2_alg».proof.Proof.Gen.Kernel
import proofs.«146488_j26654567039403_2_alg».proof.Proof.Gen.Kernel.Skeleton
import proofs.«146488_j26654567039403_2_alg».proof.Proof.Gen.Kernel.Launch
import proofs.«146488_j26654567039403_2_alg».proof.Proof.Gen.Kernel.Points
import proofs.«146488_j26654567039403_2_alg».proof.Proof.Gen.Kernel.Frame
import proofs.«146488_j26654567039403_2_alg».proof.Proof.Gen.KernelIdeal
import proofs.«146488_j26654567039403_2_alg».proof.Proof.Gen.KernelIdeal.Skeleton
import proofs.«146488_j26654567039403_2_alg».proof.Proof.Gen.KernelIdeal.Launch
import proofs.«146488_j26654567039403_2_alg».proof.Proof.Gen.KernelIdeal.Points
import proofs.«146488_j26654567039403_2_alg».proof.Proof.Gen.KernelIdeal.Frame
import proofs.«146488_j26654567039403_2_alg».proof.Proof.Gen.ReferenceIdeal
import proofs.«146488_j26654567039403_2_alg».proof.Proof.Gen.ReferenceIdeal.Run
import proofs.«146488_j26654567039403_2_alg».proof.Proof.Gen.ReferenceIdeal.Read
import proofs.«146488_j26654567039403_2_alg».proof.Proof.Gen.Pre_finite_inputs
import proofs.«146488_j26654567039403_2_alg».proof.Proof.Claims
import proofs.«146488_j26654567039403_2_alg».proof.Proof.KernelRun
import proofs.«146488_j26654567039403_2_alg».proof.Proof.KernelValue
import proofs.«146488_j26654567039403_2_alg».proof.Proof.RefValue
import Idealize.ShloMosaic.Adequacy
import Idealize.ShloMosaic.Init

noncomputable section

namespace Cert.Proof

open Idealize.ShloMosaic Idealize.ShloMosaic.TcCoe Idealize.SL.Sem

/-- At the ideal instance the kernel's result buffer ends at the specification's function of its arguments (the run
    with the result named, and the contents followed through the three calls), and the reference's at the same
    function of arguments that agree (its generated run, and its stages read index by index). -/
theorem algebraic : Cert.algebraic_KernelIdeal_ReferenceIdeal := by
  intro m ρ m' ρ' _ hagree
  refine ⟨fun c => Cert.KernelIdeal.Bridge.G m c, ?_, ?_⟩
  · exact (θ_run Cert.KernelIdeal.defs _ _).mono
      (fun _ h c => ⟨(h c).1.trans (Cert.KernelIdeal.Bridge.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v105_eq]
    funext i
    rw [Cert.RefValue.ref_eq, (hagree c).1, (hagree c).2.1, (hagree c).2.2.1, (hagree c).2.2.2.1, (hagree c).2.2.2.2.1,
      (hagree c).2.2.2.2.2]
    rfl

theorem claim : Cert.Claim := ⟨Cert.Kernel.Gen.facts, Cert.KernelIdeal.Gen.facts, Cert.ReferenceIdeal.Gen.facts, Cert.Pre_finite_inputs.Gen.facts,
  Conjuncts.frame_kernel, Conjuncts.frame_kernelIdeal, Conjuncts.frame_referenceIdeal, Conjuncts.preserves, algebraic⟩

end Cert.Proof

end
